-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x96 : Shape := ⟨2, ![128, 96]⟩
abbrev S96 : Shape := ⟨1, ![96]⟩
abbrev S96x96 : Shape := ⟨2, ![96, 96]⟩
abbrev S96x40 : Shape := ⟨2, ![96, 40]⟩
abbrev S40 : Shape := ⟨1, ![40]⟩
abbrev S2x800000 : Shape := ⟨2, ![2, 800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x96 : S_.BroadcastsInDim S96x96 (![] : Fin 0 → Fin S96x96.rank)
  reducesTo_S96x96_S_d0_1 : S96x96.ReducesTo [0, 1] S_
  bcast_S_S96x40 : S_.BroadcastsInDim S96x40 (![] : Fin 0 → Fin S96x40.rank)
  reducesTo_S96x40_S_d0_1 : S96x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S96 .f32) (main_arg5 : FVec F S96x40 .f32) (main_arg6 : FVec F S40 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x40 .f32 := Host.absf main_arg5
  let main_cst_8 : FVec F S_ .f32 := constant S_ .f32 0x7F800000#32
  let main_v25 : FVec F S96x40 .f32 := broadcastInDim S96x40 ![] bcast_S_S96x40 main_cst_8
  let main_v26 : IVec S96x40 1 := cmpf .olt main_v24 main_v25
  let main_c_9 : IVec S_ 1 := constantI S_ 1 1#1
  let main_v27 : IVec S_ 1 := (fun x v => Host.reduce IntOp.andi x v reducesTo_S96x40_S_d0_1 h_S_) main_v26 main_c_9
  let main_v28 : IVec S_ 1 := andi main_v23 main_v27
  let main_v29 : FVec F S40 .f32 := Host.absf main_arg6
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : FVec F S128x96 .f32) (main_arg2 : FVec F S96 .f32) (main_arg3 : FVec F S96x96 .f32) (main_arg4 : FVec F S96 .f32) (main_arg5 : FVec F S96x40 .f32) (main_arg6 : FVec F S40 .f32) (main_arg7 : IVec S2x800000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg1
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg2
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg3
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg4 main_arg5 main_arg6 main_v13 main_v16
-- ==== Kernel.lean ====
abbrev S50000x128 : Shape := ⟨2, ![50000, 128]⟩
abbrev S128x96 : Shape := ⟨2, ![128, 96]⟩
abbrev S96 : Shape := ⟨1, ![96]⟩
abbrev S96x96 : Shape := ⟨2, ![96, 96]⟩
abbrev S96x40 : Shape := ⟨2, ![96, 40]⟩
abbrev S40 : Shape := ⟨1, ![40]⟩
abbrev S2x800000 : Shape := ⟨2, ![2, 800000]⟩
abbrev S1x800000 : Shape := ⟨2, ![1, 800000]⟩
abbrev S800000 : Shape := ⟨1, ![800000]⟩
abbrev S50000x96 : Shape := ⟨2, ![50000, 96]⟩
abbrev S5000x128 : Shape := ⟨2, ![5000, 128]⟩
abbrev S5000x96 : Shape := ⟨2, ![5000, 96]⟩
abbrev S_ : Shape := ⟨0, ![]⟩
abbrev S800000x1 : Shape := ⟨2, ![800000, 1]⟩
abbrev S800000x96 : Shape := ⟨2, ![800000, 96]⟩
abbrev S1x96 : Shape := ⟨2, ![1, 96]⟩
abbrev S50000x40 : Shape := ⟨2, ![50000, 40]⟩
abbrev S5000x40 : Shape := ⟨2, ![5000, 40]⟩
abbrev S800000x40 : Shape := ⟨2, ![800000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 58
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S128x96, .f32⟩
  | .hbm, ⟨2, _⟩ => ⟨S96, .f32⟩
  | .hbm, ⟨3, _⟩ => ⟨S96x96, .f32⟩
  | .hbm, ⟨4, _⟩ => ⟨S96, .f32⟩
  | .hbm, ⟨5, _⟩ => ⟨S96x40, .f32⟩
  | .hbm, ⟨6, _⟩ => ⟨S40, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x96, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x96, .f32⟩
  | .hbm, ⟨22, _⟩ => ⟨S_, .f32⟩
  | .hbm, ⟨23, _⟩ => ⟨S50000x96, .f32⟩
  | .hbm, ⟨24, _⟩ => ⟨S800000x1, .i32⟩
  | .hbm, ⟨25, _⟩ => ⟨S50000x96, .f32⟩
  | .hbm, ⟨26, _⟩ => ⟨S1x96, .f32⟩
  | .hbm, ⟨27, _⟩ => ⟨S50000x96, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x96, .f32⟩
  | .hbm, ⟨37, _⟩ => ⟨S_, .f32⟩
  | .hbm, ⟨38, _⟩ => ⟨S50000x96, .f32⟩
  | .hbm, ⟨39, _⟩ => ⟨S800000x1, .i32⟩
  | .hbm, ⟨40, _⟩ => ⟨S50000x96, .f32⟩
  | .hbm, ⟨41, _⟩ => ⟨S1x96, .f32⟩
  | .hbm, ⟨42, _⟩ => ⟨S50000x40, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x40, .f32⟩
  | .hbm, ⟨52, _⟩ => ⟨S_, .f32⟩
  | .hbm, ⟨53, _⟩ => ⟨S50000x40, .f32⟩
  | .hbm, ⟨54, _⟩ => ⟨S800000x1, .i32⟩
  | .hbm, ⟨55, _⟩ => ⟨S50000x40, .f32⟩
  | .hbm, ⟨56, _⟩ => ⟨S1x40, .f32⟩
  | .hbm, ⟨57, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S1x96, .f32⟩
  | .local _ .vmem, ⟨8, _⟩ => ⟨S96x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S1x96, .f32⟩
  | .local _ .vmem, ⟨14, _⟩ => ⟨S96x40, .f32⟩
  | .local _ .vmem, ⟨15, _⟩ => ⟨S5000x40, .f32⟩
  | .local _ .vmem, ⟨16, _⟩ => ⟨S5000x40, .f32⟩
  | .local _ .vmem, ⟨17, _⟩ => ⟨S5000x40, .f32⟩
  | .local _ .vmem, ⟨18, _⟩ => ⟨S5000x40, .f32⟩
  | .local _ .vmem, ⟨19, _⟩ => ⟨S1x40, .f32⟩
  | .local _ .vmem, ⟨20, _⟩ => ⟨S5000x40, .f32⟩
  | .local _ .vmem, ⟨21, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S96x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S5000x96_S5000x96_0_0 : ∀ a, (![0, 0] : Fin 2 → Nat) a + S5000x96.size a ≤ S5000x96.size a
  h_S5000x96 : 0 < S5000x96.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  shapeCasts_S96_S1x96 : S96.ShapeCasts S1x96
  shapeCasts_S5000x96_S5000x96 : S5000x96.ShapeCasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  inb_S96x96_S96x96_0_0 : ∀ a, (![0, 0] : Fin 2 → Nat) a + S96x96.size a ≤ S96x96.size a
  h_S96x96 : 0 < S96x96.numel
  inb_S96x40_S96x40_0_0 : ∀ a, (![0, 0] : Fin 2 → Nat) a + S96x40.size a ≤ S96x40.size a
  h_S96x40 : 0 < S96x40.numel
  inb_S5000x40_S5000x40_0_0 : ∀ a, (![0, 0] : Fin 2 → Nat) a + S5000x40.size a ≤ S5000x40.size a
  h_S5000x40 : 0 < S5000x40.numel
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  dot_S5000x128_S128x96_S5000x96_1_0_0_1_n_n_wf : DotDims.WF S5000x128 S128x96 S5000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  dot_S5000x96_S96x40_S5000x40_1_0_0_1_n_n_wf : DotDims.WF S5000x96 S96x40 S5000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x96.size a ≤ S50000x96.size a
  hwx1_3 : ∀ i : grid1.Coords, EltTy.bits .f32 = 32 ∨ (Rect.block (s := S50000x96) S5000x96.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x40.size a ≤ S96x40.size a
  hwx2_2 : ∀ i : grid2.Coords, EltTy.bits .f32 = 32 ∨ (Rect.block (s := S96x40) S96x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S50000x40.size a
  hwx2_3 : ∀ i : grid2.Coords, EltTy.bits .f32 = 32 ∨ (Rect.block (s := S50000x40) S5000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S50000x40.size a
  hwx3_0 : ∀ i : grid3.Coords, EltTy.bits .f32 = 32 ∨ (Rect.block (s := S50000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S50000x40.size a
  hwx3_2 : ∀ i : grid3.Coords, EltTy.bits .f32 = 32 ∨ (Rect.block (s := S50000x40) S5000x40.size (cc3_transform_2 i) (hinb3_2 i)).WholeWords (EltTy.packing .f32)

variable [Facts₀]

def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x40_S5000x40_1_0_0_1_n_n : DotDims S5000x96 S96x40 S5000x40 where
  lhsContracting := [1]
  rhsContracting := [0]
  lhsNonContracting := [0]
  rhsNonContracting := [1]
  lhsBatch := []
  rhsBatch := []
  wf := dot_S5000x96_S96x40_S5000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S5000x96.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v26) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S96x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v40) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S128x96 : Shape := ⟨2, ![128, 96]⟩
abbrev S96 : Shape := ⟨1, ![96]⟩
abbrev S96x96 : Shape := ⟨2, ![96, 96]⟩
abbrev S96x40 : Shape := ⟨2, ![96, 40]⟩
abbrev S40 : Shape := ⟨1, ![40]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x96 : Shape := ⟨2, ![50000, 96]⟩
abbrev S1x96 : Shape := ⟨2, ![1, 96]⟩
abbrev S800000x96 : Shape := ⟨2, ![800000, 96]⟩
abbrev S50000x40 : Shape := ⟨2, ![50000, 40]⟩
abbrev S1x40 : Shape := ⟨2, ![1, 40]⟩
abbrev S50000 : Shape := ⟨1, ![50000]⟩
abbrev S50000x1 : Shape := ⟨2, ![50000, 1]⟩

abbrev nBuf : Space → Nat
  | .hbm => 84
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x96, .f32⟩
  | .hbm, ⟨2, _⟩ => ⟨S96, .f32⟩
  | .hbm, ⟨3, _⟩ => ⟨S96x96, .f32⟩
  | .hbm, ⟨4, _⟩ => ⟨S96, .f32⟩
  | .hbm, ⟨5, _⟩ => ⟨S96x40, .f32⟩
  | .hbm, ⟨6, _⟩ => ⟨S40, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S50000x96, .f32⟩
  | .hbm, ⟨26, _⟩ => ⟨S1x96, .f32⟩
  | .hbm, ⟨27, _⟩ => ⟨S50000x96, .f32⟩
  | .hbm, ⟨28, _⟩ => ⟨S50000x96, .f32⟩
  | .hbm, ⟨29, _⟩ => ⟨S_, .f32⟩
  | .hbm, ⟨30, _⟩ => ⟨S50000x96, .f32⟩
  | .hbm, ⟨31, _⟩ => ⟨S50000x96, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x96, .f32⟩
  | .hbm, ⟨41, _⟩ => ⟨S_, .f32⟩
  | .hbm, ⟨42, _⟩ => ⟨S50000x96, .f32⟩
  | .hbm, ⟨43, _⟩ => ⟨S800000x1, .i32⟩
  | .hbm, ⟨44, _⟩ => ⟨S50000x96, .f32⟩
  | .hbm, ⟨45, _⟩ => ⟨S50000x96, .f32⟩
  | .hbm, ⟨46, _⟩ => ⟨S1x96, .f32⟩
  | .hbm, ⟨47, _⟩ => ⟨S50000x96, .f32⟩
  | .hbm, ⟨48, _⟩ => ⟨S50000x96, .f32⟩
  | .hbm, ⟨49, _⟩ => ⟨S_, .f32⟩
  | .hbm, ⟨50, _⟩ => ⟨S50000x96, .f32⟩
  | .hbm, ⟨51, _⟩ => ⟨S50000x96, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x96, .f32⟩
  | .hbm, ⟨61, _⟩ => ⟨S_, .f32⟩
  | .hbm, ⟨62, _⟩ => ⟨S50000x96, .f32⟩
  | .hbm, ⟨63, _⟩ => ⟨S800000x1, .i32⟩
  | .hbm, ⟨64, _⟩ => ⟨S50000x96, .f32⟩
  | .hbm, ⟨65, _⟩ => ⟨S50000x40, .f32⟩
  | .hbm, ⟨66, _⟩ => ⟨S1x40, .f32⟩
  | .hbm, ⟨67, _⟩ => ⟨S50000x40, .f32⟩
  | .hbm, ⟨68, _⟩ => ⟨S50000x40, .f32⟩
  | .hbm, ⟨69, _⟩ => ⟨S_, .f32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x40, .f32⟩
  | .hbm, ⟨76, _⟩ => ⟨S50000x40, .f32⟩
  | .hbm, ⟨77, _⟩ => ⟨S50000x40, .f32⟩
  | .hbm, ⟨78, _⟩ => ⟨S_, .f32⟩
  | .hbm, ⟨79, _⟩ => ⟨S50000, .f32⟩
  | .hbm, ⟨80, _⟩ => ⟨S50000x1, .f32⟩
  | .hbm, ⟨81, _⟩ => ⟨S50000x1, .f32⟩
  | .hbm, ⟨82, _⟩ => ⟨S50000x40, .f32⟩
  | .hbm, ⟨83, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call0_cst : Ref sig .tc := ⟨.hbm, 29, rfl⟩
abbrev main_call0_v0 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call1_cst : Ref sig .tc := ⟨.hbm, 49, rfl⟩
abbrev main_call1_v0 : Ref sig .tc := ⟨.hbm, 50, rfl⟩
abbrev main_v33 : Ref sig .tc := ⟨.hbm, 51, rfl⟩
abbrev main_c_4 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call2_cst : Ref sig .tc := ⟨.hbm, 69, rfl⟩
abbrev main_call2_v0 : Ref sig .tc := ⟨.hbm, 70, rfl⟩
abbrev main_call2_cst_0 : Ref sig .tc := ⟨.hbm, 71, rfl⟩
abbrev main_call2_v1 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_cst_1 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_v48 : Ref sig .tc := ⟨.hbm, 83, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S_S50000x96 : S_.BroadcastsInDim S50000x96 (![] : Fin 0 → Fin S50000x96.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x96_S50000x96_1_0_0_1_n_n_wf : DotDims.WF S50000x128 S128x96 S50000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S50000x96_S96x40_S50000x40_1_0_0_1_n_n_wf : DotDims.WF S50000x96 S96x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x40_S50000x40_1_0_0_1_n_n : DotDims S50000x96 S96x40 S50000x40 where
  lhsContracting := [1]
  rhsContracting := [0]
  lhsNonContracting := [0]
  rhsNonContracting := [1]
  lhsBatch := []
  rhsBatch := []
  wf := dot_S50000x96_S96x40_S50000x40_1_0_0_1_n_n_wf

class Facts : Prop extends Facts₀ where

variable [Facts]
-- ==== Proof.LibRowGatherScatter.lean ====
/-
  Row gather, element gather and row scatter of StableHLO, read at an index.

  The dimension numbers that `x[idx]` over the rows of a matrix, `x[idx]` over a flat array and a row-wise
  segment sum lower to, each with start indices of shape `[E, 1]` (one scalar index per gathered or scattered row):
  a gathered row is the operand's row at the start index read signed and clamped into `[0, N - 1]`; a scattered
  update row lands on the operand row whose number is the scatter index read signed and not clamped, and is dropped when
  that number is outside `[0, N)`; the column is kept in both.
-/
import Idealize.ShloMosaic.PureOps.Ideal
import Idealize.ShloMosaic.Lib.ValueIdx

noncomputable section

namespace Idealize.ShloMosaic.RowGatherScatter

open Idealize.ShloMosaic Idealize.ShloMosaic.ValueIdx

/-- A signed start index clamped into `[0, N - 1]`, as StableHLO's gather clamps it. -/
def clampRow {w : Nat} (N : Nat) (hN : 0 < N) (v : BitVec w) : Fin N := ⟨min v.toInt.toNat (N - 1), by omega⟩

/-! ## Row gather: operand `[N, D]`, start indices `[E, 1]`, result `[E, D]` -/

/-- The dimension numbers of a gather of whole rows: the result's axis 1 is the offset axis, the operand's axis 0 is
    collapsed and is the one the start index names, the slice is one row `[1, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The start-indices index at which result index `(e, j)` of a row gather reads its one start-index component
    is `(e, 0)`. -/
theorem rowGather_siIdx {N E D : Nat}
    (wf : GatherDims.WF ⟨2, ![N, D]⟩ ⟨2, ![E, 1]⟩ ⟨2, ![E, D]⟩ [1] [0] [] [0] [] 1 ![1, D])
    (e : Fin E) (j : Fin D) (c : Fin (rowGatherDims N E D wf).startIndexMap.length) :
    (rowGatherDims N E D wf).siIdx (ix2 e j) c = ix2 e (0 : Fin 1) := by
  funext b
  refine Fin.ext ?_
  match b with
  | ⟨0, _⟩ => rfl
  | ⟨1, _⟩ =>
    have hc : c.val < 1 := c.isLt
    show c.val = 0
    omega

/-- THE ROW GATHER READ AT `(e, j)`: the operand at row "start index `idx[e, 0]` read signed and clamped into
    `[0, N - 1]`", column `j`. -/
theorem gather_rows_apply {α : Type} {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (j : Fin D) :
    Host.gather (rowGatherDims N E D wf) x idx (ix2 e j) = x (ix2 (clampRow N hN (idx (ix2 e (0 : Fin 1)))) j) := by
  unfold Host.gather
  congr 1
  funext a
  refine Fin.ext ?_
  match a with
  | ⟨0, _⟩ =>
    show (rowGatherDims N E D wf).start (ix2 e j) idx 0 + (rowGatherDims N E D wf).batchCoord (ix2 e j) 0
      + (rowGatherDims N E D wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    rw [rowGather_siIdx]
    rfl
  | ⟨1, _⟩ =>
    show (rowGatherDims N E D wf).start (ix2 e j) idx 1 + (rowGatherDims N E D wf).batchCoord (ix2 e j) 1
      + (rowGatherDims N E D wf).offCoord (ix2 e j) 1 = j.val
    rw [GatherDims.batchCoord_eq_zero _ _ _ List.not_mem_nil]
    have hs : (rowGatherDims N E D wf).start (ix2 e j) idx 1 = 0 := by
      unfold GatherDims.start
      rw [dif_neg (show (1 : Fin 2) ∉ [(0 : Fin 2)] by decide)]
    rw [hs]
    simp only [Nat.add_zero, Nat.zero_add]
    rfl

/-! ## Element gather: operand `[N]`, start indices `[E, 1]`, result `[E]` -/

/-- The dimension numbers of a gather of single elements of a flat array: no offset axis, the operand's one axis
    collapsed and named by the start index, the slice one element. -/
abbrev elemGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The start-indices index at which result index `e` of an element gather reads its one start-index component
    is `(e, 0)`. -/
theorem elemGather_siIdx {N E : Nat}
    (wf : GatherDims.WF ⟨1, ![N]⟩ ⟨2, ![E, 1]⟩ ⟨1, ![E]⟩ [] [0] [] [0] [] 1 ![1])
    (e : Fin E) (c : Fin (elemGatherDims N E wf).startIndexMap.length) :
    (elemGatherDims N E wf).siIdx (ix1 e) c = ix2 e (0 : Fin 1) := by
  funext b
  refine Fin.ext ?_
  match b with
  | ⟨0, _⟩ => rfl
  | ⟨1, _⟩ =>
    have hc : c.val < 1 := c.isLt
    show c.val = 0
    omega

/-- THE ELEMENT GATHER READ AT `e`: the operand at "start index `idx[e, 0]` read signed and clamped into
    `[0, N - 1]`". -/
theorem gather_elems_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (elemGatherDims N E wf) x idx (ix1 e) = x (ix1 (clampRow N hN (idx (ix2 e (0 : Fin 1))))) := by
  unfold Host.gather
  congr 1
  funext a
  obtain rfl : a = 0 := Subsingleton.elim _ _
  refine Fin.ext ?_
  show (elemGatherDims N E wf).start (ix1 e) idx 0 + (elemGatherDims N E wf).batchCoord (ix1 e) 0
    + (elemGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (elemGatherDims N E wf).startIndexMap from List.mem_singleton.mpr rfl)]
  rw [elemGather_siIdx]
  rfl

/-! ## Row scatter: operand `[N, D]`, scatter indices `[E, 1]`, updates `[E, D]` -/

/-- The dimension numbers of a scatter of whole rows: the updates' axis 1 is the window axis, the operand's axis 0 is
    inserted and is the one the scatter index names. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The scatter-indices index at which update index `(e, j)` of a row scatter reads its one start-index component
    is `(e, 0)`. -/
theorem rowScatter_siIdx {N E D : Nat}
    (wf : ScatterDims.WF ⟨2, ![N, D]⟩ ⟨2, ![E, 1]⟩ ⟨2, ![E, D]⟩ [1] [0] [0] 1)
    (e : Fin E) (j : Fin D) (c : Fin (rowScatterDims N E D wf).scatterDimsToOperandDims.length) :
    (rowScatterDims N E D wf).siIdx (ix2 e j) c = ix2 e (0 : Fin 1) := by
  funext b
  refine Fin.ext ?_
  match b with
  | ⟨0, _⟩ => rfl
  | ⟨1, _⟩ =>
    have hc : c.val < 1 := c.isLt
    show c.val = 0
    omega

/-- On the row axis the window of update `(e, j)` starts at the scatter index `idx[e, 0]` read signed. -/
theorem rowScatter_start_row {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N E D wf).start (ix2 e j) idx 0 = (idx (ix2 e (0 : Fin 1))).toInt := by
  unfold ScatterDims.start
  rw [dif_pos (show (0 : Fin 2) ∈ (rowScatterDims N E D wf).scatterDimsToOperandDims from List.mem_singleton.mpr rfl)]
  rw [rowScatter_siIdx]

/-- On the column axis the window starts at `0`: the scatter index does not name that axis. -/
theorem rowScatter_start_col {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) :
    (rowScatterDims N E D wf).start (ix2 e j) idx 1 = 0 := by
  unfold ScatterDims.start
  rw [dif_neg (show (1 : Fin 2) ∉ [(0 : Fin 2)] by decide)]

/-- The window coordinate of update `(e, j)` on the row axis is `0`: that axis is inserted. -/
theorem rowScatter_window_row {N E D : Nat}
    (wf : ScatterDims.WF ⟨2, ![N, D]⟩ ⟨2, ![E, 1]⟩ ⟨2, ![E, D]⟩ [1] [0] [0] 1) (e : Fin E) (j : Fin D) :
    (rowScatterDims N E D wf).window (ix2 e j) 0 = 0 := rfl

/-- The window coordinate of update `(e, j)` on the column axis is the column `j`. -/
theorem rowScatter_window_col {N E D : Nat}
    (wf : ScatterDims.WF ⟨2, ![N, D]⟩ ⟨2, ![E, 1]⟩ ⟨2, ![E, D]⟩ [1] [0] [0] 1) (e : Fin E) (j : Fin D) :
    (rowScatterDims N E D wf).window (ix2 e j) 1 = j.val := rfl

/-- WHERE A SCATTERED ROW LANDS: update row `e` lands on operand row `n` exactly when its scatter index
    `idx[e, 0]`, read signed and NOT clamped, is `n`; the column is kept. -/
theorem rowScatter_resultIdx?_eq_some {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) (i : (⟨2, ![N, D]⟩ : Shape).Idx)
    (h : (rowScatterDims N E D wf).resultIdx? (ix2 e j) idx = some i) :
    ∃ n : Fin N, i = ix2 n j ∧ (idx (ix2 e (0 : Fin 1))).toInt = (n.val : Int) := by
  unfold ScatterDims.resultIdx? at h
  split at h
  · rename_i hin
    have h0 := hin 0
    rw [rowScatter_start_row, rowScatter_window_row] at h0
    have hsize : (⟨2, ![N, D]⟩ : Shape).size 0 = N := rfl
    rw [hsize] at h0
    have hi := Option.some.inj h
    refine ⟨⟨(idx (ix2 e (0 : Fin 1))).toInt.toNat, by omega⟩, ?_, by simp only; omega⟩
    rw [← hi]
    funext a
    refine Fin.ext ?_
    match a with
    | ⟨0, _⟩ =>
      show ((rowScatterDims N E D wf).start (ix2 e j) idx 0 + ((rowScatterDims N E D wf).window (ix2 e j) 0 : Nat)).toNat
        = (idx (ix2 e (0 : Fin 1))).toInt.toNat
      rw [rowScatter_start_row, rowScatter_window_row]
      simp
    | ⟨1, _⟩ =>
      show ((rowScatterDims N E D wf).start (ix2 e j) idx 1 + ((rowScatterDims N E D wf).window (ix2 e j) 1 : Nat)).toNat
        = j.val
      rw [rowScatter_start_col, rowScatter_window_col]
      simp
  · exact absurd h (by simp)

/-- The converse: when the scatter index `idx[e, 0]`, read signed, is the row number `n < N`, update
    `(e, j)` lands at `(n, j)`. -/
theorem rowScatter_resultIdx?_of_toInt {N E D w : Nat}
    (wf : ScatterDims.WF ⟨2, ![N, D]⟩ ⟨2, ![E, 1]⟩ ⟨2, ![E, D]⟩ [1] [0] [0] 1)
    (idx : IVec ⟨2, ![E, 1]⟩ w) (e : Fin E) (j : Fin D) (n : Fin N)
    (hn : (idx (ix2 e (0 : Fin 1))).toInt = (n.val : Int)) :
    (rowScatterDims N E D wf).resultIdx? (ix2 e j) idx = some (ix2 n j) := by
  have hin : ∀ a, 0 ≤ (rowScatterDims N E D wf).start (ix2 e j) idx a + (rowScatterDims N E D wf).window (ix2 e j) a ∧
      (rowScatterDims N E D wf).start (ix2 e j) idx a + (rowScatterDims N E D wf).window (ix2 e j) a
        < (⟨2, ![N, D]⟩ : Shape).size a := by
    intro a
    match a with
    | ⟨0, _⟩ =>
      have hsize : (⟨2, ![N, D]⟩ : Shape).size ⟨0, by omega⟩ = N := rfl
      have h0 : (rowScatterDims N E D wf).start (ix2 e j) idx ⟨0, by omega⟩ = (n.val : Int) :=
        (rowScatter_start_row wf idx e j).trans hn
      have h1 : (rowScatterDims N E D wf).window (ix2 e j) ⟨0, by omega⟩ = 0 := rfl
      have := n.isLt
      rw [hsize, h0, h1]
      omega
    | ⟨1, _⟩ =>
      have hsize : (⟨2, ![N, D]⟩ : Shape).size ⟨1, by omega⟩ = D := rfl
      have h0 : (rowScatterDims N E D wf).start (ix2 e j) idx ⟨1, by omega⟩ = 0 := rowScatter_start_col wf idx e j
      have h1 : (rowScatterDims N E D wf).window (ix2 e j) ⟨1, by omega⟩ = j.val := rfl
      have := j.isLt
      rw [hsize, h0, h1]
      omega
  unfold ScatterDims.resultIdx?
  rw [dif_pos hin]
  congr 1
  funext a
  refine Fin.ext ?_
  match a with
  | ⟨0, _⟩ =>
    show ((rowScatterDims N E D wf).start (ix2 e j) idx 0 + ((rowScatterDims N E D wf).window (ix2 e j) 0 : Nat)).toNat
      = n.val
    rw [rowScatter_start_row, rowScatter_window_row, hn]
    simp
  | ⟨1, _⟩ =>
    show ((rowScatterDims N E D wf).start (ix2 e j) idx 1 + ((rowScatterDims N E D wf).window (ix2 e j) 1 : Nat)).toNat
      = j.val
    rw [rowScatter_start_col, rowScatter_window_col]
    simp

/-! ## Element scatter: operand `[N]`, scatter indices `[E, 1]`, updates `[E]` -/

/-- The dimension numbers of a scatter of single elements into a flat array: no window axis, the operand's one axis
    inserted and named by the scatter index. -/
abbrev elemScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The scatter-indices index at which update index `e` of an element scatter reads its one start-index component
    is `(e, 0)`. -/
theorem elemScatter_siIdx {N E : Nat}
    (wf : ScatterDims.WF ⟨1, ![N]⟩ ⟨2, ![E, 1]⟩ ⟨1, ![E]⟩ [] [0] [0] 1)
    (e : Fin E) (c : Fin (elemScatterDims N E wf).scatterDimsToOperandDims.length) :
    (elemScatterDims N E wf).siIdx (ix1 e) c = ix2 e (0 : Fin 1) := by
  funext b
  refine Fin.ext ?_
  match b with
  | ⟨0, _⟩ => rfl
  | ⟨1, _⟩ =>
    have hc : c.val < 1 := c.isLt
    show c.val = 0
    omega

/-- The window of update `e` starts at the scatter index `idx[e, 0]` read signed. -/
theorem elemScatter_start {N E w : Nat}
    (wf : ScatterDims.WF ⟨1, ![N]⟩ ⟨2, ![E, 1]⟩ ⟨1, ![E]⟩ [] [0] [0] 1)
    (idx : IVec ⟨2, ![E, 1]⟩ w) (e : Fin E) :
    (elemScatterDims N E wf).start (ix1 e) idx 0 = (idx (ix2 e (0 : Fin 1))).toInt := by
  unfold ScatterDims.start
  rw [dif_pos (show (0 : Fin 1) ∈ (elemScatterDims N E wf).scatterDimsToOperandDims from List.mem_singleton.mpr rfl)]
  rw [elemScatter_siIdx]

/-- The window coordinate of update `e` on the one axis is `0`: that axis is inserted. -/
theorem elemScatter_window {N E : Nat}
    (wf : ScatterDims.WF ⟨1, ![N]⟩ ⟨2, ![E, 1]⟩ ⟨1, ![E]⟩ [] [0] [0] 1) (e : Fin E) :
    (elemScatterDims N E wf).window (ix1 e) 0 = 0 := rfl

/-- WHERE A SCATTERED ELEMENT LANDS: update `e` lands on operand element `n` exactly when its scatter index
    `idx[e, 0]`, read signed and NOT clamped, is `n`. -/
theorem elemScatter_resultIdx?_eq_some {N E w : Nat}
    (wf : ScatterDims.WF ⟨1, ![N]⟩ ⟨2, ![E, 1]⟩ ⟨1, ![E]⟩ [] [0] [0] 1)
    (idx : IVec ⟨2, ![E, 1]⟩ w) (e : Fin E) (i : (⟨1, ![N]⟩ : Shape).Idx)
    (h : (elemScatterDims N E wf).resultIdx? (ix1 e) idx = some i) :
    ∃ n : Fin N, i = ix1 n ∧ (idx (ix2 e (0 : Fin 1))).toInt = (n.val : Int) := by
  unfold ScatterDims.resultIdx? at h
  split at h
  · rename_i hin
    have h0 := hin 0
    rw [elemScatter_start, elemScatter_window] at h0
    have hsize : (⟨1, ![N]⟩ : Shape).size 0 = N := rfl
    rw [hsize] at h0
    have hi := Option.some.inj h
    refine ⟨⟨(idx (ix2 e (0 : Fin 1))).toInt.toNat, by omega⟩, ?_, by simp only; omega⟩
    rw [← hi]
    funext a
    obtain rfl : a = 0 := Subsingleton.elim _ _
    refine Fin.ext ?_
    show ((elemScatterDims N E wf).start (ix1 e) idx 0 + ((elemScatterDims N E wf).window (ix1 e) 0 : Nat)).toNat
      = (idx (ix2 e (0 : Fin 1))).toInt.toNat
    rw [elemScatter_start, elemScatter_window]
    simp
  · exact absurd h (by simp)

/-- The converse: when the scatter index `idx[e, 0]`, read signed, is the element number `n < N`, update
    `e` lands at `n`. -/
theorem elemScatter_resultIdx?_of_toInt {N E w : Nat}
    (wf : ScatterDims.WF ⟨1, ![N]⟩ ⟨2, ![E, 1]⟩ ⟨1, ![E]⟩ [] [0] [0] 1)
    (idx : IVec ⟨2, ![E, 1]⟩ w) (e : Fin E) (n : Fin N)
    (hn : (idx (ix2 e (0 : Fin 1))).toInt = (n.val : Int)) :
    (elemScatterDims N E wf).resultIdx? (ix1 e) idx = some (ix1 n) := by
  have hin : ∀ a, 0 ≤ (elemScatterDims N E wf).start (ix1 e) idx a + (elemScatterDims N E wf).window (ix1 e) a ∧
      (elemScatterDims N E wf).start (ix1 e) idx a + (elemScatterDims N E wf).window (ix1 e) a
        < (⟨1, ![N]⟩ : Shape).size a := by
    intro a
    obtain rfl : a = 0 := Subsingleton.elim _ _
    have hsize : (⟨1, ![N]⟩ : Shape).size 0 = N := rfl
    have h0 : (elemScatterDims N E wf).start (ix1 e) idx 0 = (n.val : Int) := (elemScatter_start wf idx e).trans hn
    have h1 : (elemScatterDims N E wf).window (ix1 e) 0 = 0 := rfl
    have := n.isLt
    rw [hsize, h0, h1]
    omega
  unfold ScatterDims.resultIdx?
  rw [dif_pos hin]
  congr 1
  funext a
  obtain rfl : a = 0 := Subsingleton.elim _ _
  refine Fin.ext ?_
  show ((elemScatterDims N E wf).start (ix1 e) idx 0 + ((elemScatterDims N E wf).window (ix1 e) 0 : Nat)).toNat = n.val
  rw [elemScatter_start, elemScatter_window, hn]
  simp

/-! ## A start index that is a row number -/

/-- A start index whose signed value is a row number `n < N` is clamped to `n` itself. -/
theorem clampRow_of_toInt {N : Nat} (hN : 0 < N) (v : BitVec 32) (n : Fin N) (h : v.toInt = (n.val : Int)) :
    clampRow N hN v = n := by
  refine Fin.ext ?_
  have hn := n.isLt
  show min v.toInt.toNat (N - 1) = n.val
  rw [h]
  simp only [Int.toNat_natCast]
  omega

/-- The signed comparison "`v < 0`" of a 32-bit word whose signed value is a natural number is the bit `0`. -/
theorem cmpi_slt_zero_of_toInt (v : BitVec 32) (n : Nat) (h : v.toInt = (n : Int)) :
    IntOp.cmpi .slt v 0#32 = 0#1 := by
  have hs : v.slt 0#32 = false := by
    simp only [BitVec.slt, h]
    simp
  show BitVec.ofBool (v.slt 0#32) = 0#1
  rw [hs]
  rfl

/-- Normalising a possibly negative index (`v < 0 → v + N`) leaves alone a word whose signed value is a natural
    number: the select takes its second operand, whatever the first is. -/
theorem select_slt_zero_of_toInt {α : Type} (v : BitVec 32) (n : Nat) (h : v.toInt = (n : Int)) (a b : α) :
    Scalar.select (IntOp.cmpi .slt v 0#32) a b = b := by
  rw [cmpi_slt_zero_of_toInt v n h]
  exact select_zero a b

/-- The normalised index as a program computes it at one element, `select (cmpi slt v 0) (addi v N) v`, is `v`
    when `v`'s signed value is a natural number. -/
theorem normalised_of_toInt (v : BitVec 32) (n : Nat) (h : v.toInt = (n : Int)) (N : BitVec 32) :
    Scalar.select (IntOp.cmpi .slt v 0#32) (IntOp.addi v N) v = v :=
  select_slt_zero_of_toInt v n h _ _

/-- The same with the sum written as the words' sum (`IntOp.addi v N` is `v + N` by definition). -/
theorem normalised_of_toInt' (v : BitVec 32) (n : Nat) (h : v.toInt = (n : Int)) (N : BitVec 32) :
    Scalar.select (IntOp.cmpi .slt v 0#32) (v + N) v = v :=
  select_slt_zero_of_toInt v n h _ _

end Idealize.ShloMosaic.RowGatherScatter

end
-- ==== Proof.LibScatterAddSum.lean ====
/-
  The accumulating float scatter on the extended reals, read at an index.

  At the exact instance a scatter-add delivers each operand element plus the sum of the update elements that land on
  it.  For a scatter of whole rows (and of single elements of a flat array) with one scalar index per update row, the
  updates landing on row `n` are those of the update rows whose index, read signed, is `n`: the sum over update
  indices becomes a sum over those update rows.
-/
import Idealize.ShloMosaic.PureOps.Ideal
import Idealize.ShloMosaic.Lib.ValueIdx
import proofs.«130317_j78408922955888_2_alg».proof.Proof.LibRowGatherScatter

noncomputable section

open scoped BigOperators

namespace Idealize.ShloMosaic.RowGatherScatter

open Idealize.ShloMosaic Idealize.ShloMosaic.ValueIdx

/-- Two rank-2 indices built from coordinates are equal only when the coordinates are. -/
theorem ix2_inj {n0 n1 : Nat} {a a' : Fin n0} {b b' : Fin n1} (h : ix2 a b = ix2 a' b') : a = a' ∧ b = b' :=
  ⟨congrFun h 0, congrFun h 1⟩

/-- Two rank-1 indices built from a coordinate are equal only when the coordinates are. -/
theorem ix1_inj {n0 : Nat} {a a' : Fin n0} (h : ix1 a = ix1 a') : a = a' := congrFun h 0

/-- THE ROW SCATTER-ADD READ AT `(n, j)`: the operand's element plus the sum, over the update rows `e` whose scatter
    index `idx[e, 0]` read signed is `n`, of the update's element `(e, j)`. -/
theorem rowScatterAdd_apply {N E D w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (n : Fin N) (j : Fin D) :
    Ideal.hostScatterAdd (rowScatterDims N E D wf) x idx upd (ix2 n j)
      = x (ix2 n j) + ∑ e ∈ Finset.univ.filter (fun e : Fin E => (idx (ix2 e (0 : Fin 1))).toInt = (n.val : Int)),
          upd (ix2 e j) := by
  unfold Ideal.hostScatterAdd
  congr 1
  symm
  refine Finset.sum_bij (fun e _ => ix2 e j) ?_ ?_ ?_ ?_
  · intro e he
    rw [Finset.mem_filter] at he ⊢
    exact ⟨Finset.mem_univ _, rowScatter_resultIdx?_of_toInt wf idx e j n he.2⟩
  · intro a _ b _ h
    exact (ix2_inj h).1
  · intro u hu
    rw [Finset.mem_filter] at hu
    obtain ⟨p, q, rfl⟩ : ∃ (p : Fin E) (q : Fin D), u = ix2 p q := ⟨u 0, u 1, eq_ix2 u⟩
    obtain ⟨n', hn', hidx⟩ := rowScatter_resultIdx?_eq_some wf idx p q _ hu.2
    obtain ⟨hn, hj⟩ := ix2_inj hn'
    subst hn
    subst hj
    exact ⟨p, Finset.mem_filter.mpr ⟨Finset.mem_univ _, hidx⟩, rfl⟩
  · intro e _
    rfl

/-- THE ELEMENT SCATTER-ADD READ AT `n`: the operand's element plus the sum, over the updates `e` whose scatter index
    `idx[e, 0]` read signed is `n`, of the update's element `e`. -/
theorem elemScatterAdd_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (elemScatterDims N E wf) x idx upd (ix1 n)
      = x (ix1 n) + ∑ e ∈ Finset.univ.filter (fun e : Fin E => (idx (ix2 e (0 : Fin 1))).toInt = (n.val : Int)),
          upd (ix1 e) := by
  unfold Ideal.hostScatterAdd
  congr 1
  symm
  refine Finset.sum_bij (fun e _ => ix1 e) ?_ ?_ ?_ ?_
  · intro e he
    rw [Finset.mem_filter] at he ⊢
    exact ⟨Finset.mem_univ _, elemScatter_resultIdx?_of_toInt wf idx e n he.2⟩
  · intro a _ b _ h
    exact ix1_inj h
  · intro u hu
    rw [Finset.mem_filter] at hu
    obtain ⟨p, rfl⟩ : ∃ (p : Fin E), u = ix1 p := ⟨u 0, eq_ix1 u⟩
    obtain ⟨n', hn', hidx⟩ := elemScatter_resultIdx?_eq_some wf idx p _ hu.2
    have hn := ix1_inj hn'
    subst hn
    exact ⟨p, Finset.mem_filter.mpr ⟨Finset.mem_univ _, hidx⟩, rfl⟩
  · intro e _
    rfl

end Idealize.ShloMosaic.RowGatherScatter

end
-- ==== Proof.GcnSpec.lean ====
/-
  A three-layer graph convolution on the extended reals, stated on whole arrays and read index by index.

  A graph on `N` nodes is given by two lists of `E` index words: edge `e` carries the features of its source
  node to its destination node.  Aggregating a feature matrix `f` sums, into row `n`, the rows of `f` at the
  sources of the edges whose destination is `n`.  A source word is read signed and clamped into the node
  range (what a row gather does with a start index); a destination word is read signed and an edge whose word
  names no node contributes nowhere (what an accumulating row scatter does).

  One program multiplies by the layer's weights BEFORE aggregating, the other AFTER.  Aggregation is a finite
  sum of rows, so it commutes with the product by a fixed matrix as soon as every entry involved is a real
  number: on the extended reals `(a + b) * w = a * w + b * w` can fail at the infinities, and holds on the reals.
-/
import Idealize.ShloMosaic.PureOps.Ideal
import Idealize.ShloMosaic.Lib.ValueIdx
import proofs.«130317_j78408922955888_2_alg».proof.Proof.LibRowGatherScatter
import proofs.«130317_j78408922955888_2_alg».proof.Proof.LibScatterAddSum

noncomputable section

open scoped BigOperators

namespace Gcn

open Idealize.ShloMosaic Idealize.ShloMosaic.ValueIdx Idealize.ShloMosaic.RowGatherScatter

/-- A matrix of extended reals with `n` rows and `d` columns, as a function of its index. -/
abbrev Mat (n d : Nat) := (⟨2, ![n, d]⟩ : Shape).Idx → EReal
/-- A vector of `d` extended reals. -/
abbrev Row (d : Nat) := (⟨1, ![d]⟩ : Shape).Idx → EReal
/-- One 32-bit index word per edge, as a one-column matrix. -/
abbrev Words (E : Nat) := IVec ⟨2, ![E, 1]⟩ 32

/-! ## The operations -/

section Ops
variable {N E : Nat}

/-- The edges whose destination word, read signed, is node `n`. -/
def into (dst : Words E) (n : Fin N) : Finset (Fin E) :=
  Finset.univ.filter (fun e : Fin E => (dst (ix2 e (0 : Fin 1))).toInt = (n.val : Int))

/-- The node an edge reads: its source word read signed and clamped into the node range. -/
def origin (hN : 0 < N) (src : Words E) (e : Fin E) : Fin N := clampRow N hN (src (ix2 e (0 : Fin 1)))

/-- Aggregation: row `n` of the result is the sum of the rows of `f` at the sources of the edges into `n`. -/
def aggr {D : Nat} (hN : 0 < N) (src dst : Words E) (f : Mat N D) : Mat N D :=
  fun i => ∑ e ∈ into (N := N) dst (i 0), f (ix2 (origin hN src e) (i 1))

/-- The matrix product, rows against columns. -/
def mm {n k d : Nat} (A : Mat n k) (B : Mat k d) : Mat n d :=
  fun i => ∑ c : Fin k, A (ix2 (i 0) c) * B (ix2 c (i 1))

/-- A bias added along the rows. -/
def addBias {n d : Nat} (A : Mat n d) (b : Row d) : Mat n d := fun i => A i + b (ix1 (i 1))

/-- A bias added along the rows, then the rectifier. -/
def biasRelu {n d : Nat} (A : Mat n d) (b : Row d) : Mat n d := fun i => max (A i + b (ix1 (i 1))) 0

/-- The maximum of row `r`, from `-∞`. -/
def rowMax {n d : Nat} (L : Mat n d) (r : Fin n) : EReal :=
  (Finset.univ : Finset (Fin d)).fold max ⊥ (fun k => L (ix2 r k))

/-- The row-wise log-softmax: the row's maximum subtracted, then the logarithm of the sum of the row's
    exponentials subtracted. -/
def logSoftmax {n d : Nat} (L : Mat n d) : Mat n d :=
  fun i => (L (ix2 (i 0) (i 1)) - rowMax L (i 0))
    - Ideal.log (∑ k : Fin d, Ideal.exp (L (ix2 (i 0) k) - rowMax L (i 0)))

/-- Every member of the family is a real number (neither infinity). -/
def IsReal {ι : Type} (f : ι → EReal) : Prop := ∀ i, ∃ r : ℝ, f i = (r : EReal)

end Ops

/-! ## The two programs -/

section Programs
variable {N E d0 d1 d2 d3 : Nat} (hN : 0 < N) (src dst : Words E)
  (X : Mat N d0) (W1 : Mat d0 d1) (b1 : Row d1) (W2 : Mat d1 d2) (b2 : Row d2) (W3 : Mat d2 d3) (b3 : Row d3)

/-- Weights first, aggregation second, in every layer. -/
def productFirst : Mat N d3 :=
  logSoftmax (addBias (aggr hN src dst (mm (biasRelu (aggr hN src dst (mm (biasRelu (aggr hN src dst (mm X W1)) b1) W2)) b2) W3)) b3)

/-- Aggregation first, weights second, in every layer. -/
def aggregateFirst : Mat N d3 :=
  logSoftmax (addBias (mm (aggr hN src dst (biasRelu (mm (aggr hN src dst (biasRelu (mm (aggr hN src dst X) W1) b1)) W2) b2)) W3) b3)

end Programs

/-! ## A row gather followed by an accumulating row scatter into zeros is the aggregation -/

theorem gatherScatter_eq_aggr {N E D : Nat} (hN : 0 < N)
    (wfG : GatherDims.WF ⟨2, ![N, D]⟩ ⟨2, ![E, 1]⟩ ⟨2, ![E, D]⟩ [1] [0] [] [0] [] 1 ![1, D])
    (wfS : ScatterDims.WF ⟨2, ![N, D]⟩ ⟨2, ![E, 1]⟩ ⟨2, ![E, D]⟩ [1] [0] [0] 1)
    (src dst : Words E) (f : Mat N D) (z : Mat N D) (hz : ∀ i, z i = 0) :
    Ideal.hostScatterAdd (rowScatterDims N E D wfS) z dst (Host.gather (rowGatherDims N E D wfG) f src)
      = aggr hN src dst f := by
  funext i
  obtain ⟨n, j, rfl⟩ : ∃ (n : Fin N) (j : Fin D), i = ix2 n j := ⟨i 0, i 1, eq_ix2 i⟩
  rw [rowScatterAdd_apply, hz, zero_add]
  unfold aggr into origin
  refine Finset.sum_congr rfl fun e _ => ?_
  exact gather_rows_apply hN wfG f src e j

end Gcn

end
-- ==== Proof.GcnAlgebra.lean ====
/-
  The two arrangements of the graph convolution agree on real inputs.

  Call a family of extended reals REAL when each member is a real number.  Finite sums, products, sums with a bias
  and the rectifier keep a family real, so every intermediate matrix of either program is real when the inputs are.
  For real `f` and `W` the aggregation commutes with the product:
      Σ_{e into n} Σ_c f(origin e, c) · W(c, j)  =  Σ_c (Σ_{e into n} f(origin e, c)) · W(c, j),
  by exchanging the two finite sums and pulling the common factor `W(c, j)` out of the inner one — the step that
  needs real numbers.  Applied once per layer, from the first to the last, it carries one program into the other.
-/
import proofs.«130317_j78408922955888_2_alg».proof.Proof.GcnSpec

noncomputable section

open scoped BigOperators

namespace Gcn

open Idealize.ShloMosaic Idealize.ShloMosaic.ValueIdx

/-- A finite sum of real numbers, computed on the extended reals, is their real sum. -/
theorem coe_sum {ι : Type} (s : Finset ι) (g : ι → ℝ) : (∑ i ∈ s, ((g i : ℝ) : EReal)) = ((∑ i ∈ s, g i : ℝ) : EReal) := by
  classical
  refine Finset.induction_on s (by simp) fun a s ha ih => ?_
  rw [Finset.sum_insert ha, Finset.sum_insert ha, ih, EReal.coe_add]

/-- A finite sum of members of a real family is a real number. -/
theorem real_sum {ι κ : Type} (s : Finset κ) (f : ι → EReal) (hf : IsReal f) (p : κ → ι) :
    ∃ r : ℝ, (∑ k ∈ s, f (p k)) = (r : EReal) := by
  choose g hg using hf
  exact ⟨∑ k ∈ s, g (p k), by rw [← coe_sum]; exact Finset.sum_congr rfl fun k _ => hg (p k)⟩

/-- On real families a common right factor comes out of a finite sum. -/
theorem sum_mul_real {κ : Type} (s : Finset κ) (a : κ → EReal) (ha : IsReal a) (w : EReal) (hw : ∃ r : ℝ, w = (r : EReal)) :
    (∑ k ∈ s, a k * w) = (∑ k ∈ s, a k) * w := by
  choose g hg using ha
  obtain ⟨r, rfl⟩ := hw
  have e1 : (∑ k ∈ s, a k * (r : EReal)) = ∑ k ∈ s, ((g k * r : ℝ) : EReal) :=
    Finset.sum_congr rfl fun k _ => by rw [hg k, EReal.coe_mul]
  have e2 : (∑ k ∈ s, a k) = ∑ k ∈ s, ((g k : ℝ) : EReal) := Finset.sum_congr rfl fun k _ => hg k
  rw [e1, e2, coe_sum, coe_sum, ← EReal.coe_mul, Finset.sum_mul]

section Real
variable {N E : Nat} (hN : 0 < N) (src dst : Words E)

theorem isReal_aggr {D : Nat} (f : Mat N D) (hf : IsReal f) : IsReal (aggr hN src dst f) := fun i =>
  real_sum _ f hf fun e => ix2 (origin hN src e) (i 1)

theorem isReal_mm {n k d : Nat} (A : Mat n k) (B : Mat k d) (hA : IsReal A) (hB : IsReal B) : IsReal (mm A B) := fun i => by
  choose a ha using hA
  choose b hb using hB
  refine ⟨∑ c : Fin k, a (ix2 (i 0) c) * b (ix2 c (i 1)), ?_⟩
  unfold mm
  rw [← coe_sum]
  exact Finset.sum_congr rfl fun c _ => by rw [ha, hb, EReal.coe_mul]

theorem isReal_biasRelu {n d : Nat} (A : Mat n d) (b : Row d) (hA : IsReal A) (hb : IsReal b) : IsReal (biasRelu A b) := fun i => by
  obtain ⟨a, ha⟩ := hA i
  obtain ⟨c, hc⟩ := hb (ix1 (i 1))
  refine ⟨max (a + c) 0, ?_⟩
  unfold biasRelu
  rw [ha, hc, ← EReal.coe_add, ← EReal.coe_zero]
  exact (EReal.coe_strictMono.monotone.map_max).symm

/-- THE LAW: on real matrices, aggregating the product is the product of the aggregate. -/
theorem aggr_mm {k D : Nat} (f : Mat N k) (W : Mat k D) (hf : IsReal f) (hW : IsReal W) :
    aggr hN src dst (mm f W) = mm (aggr hN src dst f) W := by
  funext i
  unfold aggr mm
  show (∑ e ∈ into (N := N) dst (i 0), ∑ c : Fin k, f (ix2 (origin hN src e) c) * W (ix2 c (i 1)))
    = ∑ c : Fin k, (∑ e ∈ into (N := N) dst (i 0), f (ix2 (origin hN src e) c)) * W (ix2 c (i 1))
  rw [Finset.sum_comm]
  refine Finset.sum_congr rfl fun c _ => ?_
  exact sum_mul_real _ (fun e => f (ix2 (origin hN src e) c)) (fun e => hf _) _ (hW _)

end Real

/-- The two programs compute the same matrix when the features, the weights and the first two biases are real. -/
theorem productFirst_eq_aggregateFirst {N E d0 d1 d2 d3 : Nat} (hN : 0 < N) (src dst : Words E)
    (X : Mat N d0) (W1 : Mat d0 d1) (b1 : Row d1) (W2 : Mat d1 d2) (b2 : Row d2) (W3 : Mat d2 d3) (b3 : Row d3)
    (hX : IsReal X) (hW1 : IsReal W1) (hb1 : IsReal b1) (hW2 : IsReal W2) (hb2 : IsReal b2) (hW3 : IsReal W3) :
    productFirst hN src dst X W1 b1 W2 b2 W3 b3 = aggregateFirst hN src dst X W1 b1 W2 b2 W3 b3 := by
  unfold productFirst aggregateFirst
  have h1 : IsReal (biasRelu (mm (aggr hN src dst X) W1) b1) :=
    isReal_biasRelu _ _ (isReal_mm _ _ (isReal_aggr hN src dst X hX) hW1) hb1
  have h2 : IsReal (biasRelu (mm (aggr hN src dst (biasRelu (mm (aggr hN src dst X) W1) b1)) W2) b2) :=
    isReal_biasRelu _ _ (isReal_mm _ _ (isReal_aggr hN src dst _ h1) hW2) hb2
  rw [aggr_mm hN src dst X W1 hX hW1, aggr_mm hN src dst _ W2 h1 hW2, aggr_mm hN src dst _ W3 h2 hW3]

end Gcn

end
-- ==== Proof.KernelRun.lean ====
/-
  The kernel program's run with its result named.

  The program is eight segments: four stretches of host operations and four grid regions.  The buffer contents at each
  segment boundary are a fold from the launch memory (a stretch applies its operations; a region leaves in each of its
  arrays what its write-backs leave and every other buffer alone).  Every weakly fair execution ends with every
  buffer at the last boundary's contents: the arguments as launched, and the result buffer at the last region's output.
-/
import proofs.«130317_j78408922955888_2_alg».proof.Proof.Gen.KernelIdeal.Frame

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run : θ_run defs (onTc (τ := τ) (main (F := F))) ⟨m, fun _ => 0, ρ⟩ (fun r => ∀ c : Dev nD,
      r.2.mem ((c.tc : Thread nD τ).loc main_v40) = W8 m ρ c (Proc.devRef .tc main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v40 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.Named

end
-- ==== Proof.LibMatrixAtIndex.lean ====
/-
  Vector operations of a graph-convolution layer body read at one index, at the exact (extended-real) instance and
  over arbitrary extents: a row sum and a row maximum of a matrix; the column shapes a keep-dimension reduction
  passes through; a matrix product into a zero accumulator for each of the three ways its two operands are
  contracted (rows against columns, rows against rows, columns against columns); the select that puts one where a
  shifted row number meets a column number; a row-wise log-softmax; the literals 1 and -∞.
-/
import Idealize.ShloMosaic.PureOps
import Idealize.ShloMosaic.Lib.ValueIdx
import Idealize.ShloMosaic.Lib.ValueLayout
import Idealize.ShloMosaic.PureOps.Ideal.Laws

noncomputable section

open scoped BigOperators

namespace Cert.KernelIdeal.Pay

open Idealize.ShloMosaic Idealize.ShloMosaic.ValueIdx

/-! ## A reduction along the rows of a matrix -/

section Rows
variable {a b : Nat} {φ : FTy}

/-- The index over row `r` with column `k` inserted is `(r, k)`. -/
theorem lift_row (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- A sum along the rows, at row `r`: the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) :=
  (Ideal.multiReduction_add_single src acc h hφ hacc (ix1 r)).trans
    (Finset.sum_congr rfl fun k _ => congrArg src (lift_row h r k))

/-- A maximum along the rows, at row `r`: the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) :=
  (Ideal.multiReduction_maximumf_single src acc h hφ hacc (ix1 r)).trans
    (congrArg (Finset.fold max (Ideal.ofBits φ acc) · Finset.univ) (funext fun k => congrArg src (lift_row h r k)))

end Rows

/-! ## Column shapes -/

section Columns
variable {α : Type} {a b : Nat}

/-- A vector cast to a one-column matrix reads, at `(i, u)`, the vector at `i`. -/
theorem shapeCast_col_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast over `b` columns reads, at `(p, c)`, the column at `p`. -/
theorem broadcastTo_col_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-! ## A matrix product into a zero accumulator, for each way the two operands are contracted -/

section Dot
variable {sl sr so : Shape} (d : DotDims sl sr so)

/-- On a kept axis of the left operand (no batch axes) the operand index is the result index's coordinate at
    that axis's position among the kept axes. -/
theorem lhsIdx_val_kept (hb : d.lhsBatch = []) {al : Fin sl.rank} (hn : al ∈ d.lhsNonContracting) {p : Nat}
    (hp : d.lhsNonContracting.idxOf al = p) (hpo : p < so.rank) (j : so.Idx) (q : d.contr.Idx) :
    (d.lhsIdx j q al).val = (j ⟨p, hpo⟩).val := by
  have hnb : al ∉ d.lhsBatch := by rw [hb]; exact List.not_mem_nil
  unfold DotDims.lhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hb, hp]; simp)

/-- On a kept axis of the right operand (no batch axes) the operand index is the result index's coordinate at
    that axis's position after the left operand's kept axes. -/
theorem rhsIdx_val_kept (hlb : d.lhsBatch = []) (hb : d.rhsBatch = []) {ar : Fin sr.rank} (hn : ar ∈ d.rhsNonContracting)
    {p : Nat} (hp : d.lhsNonContracting.length + d.rhsNonContracting.idxOf ar = p) (hpo : p < so.rank) (j : so.Idx)
    (q : d.contr.Idx) : (d.rhsIdx j q ar).val = (j ⟨p, hpo⟩).val := by
  have hnb : ar ∉ d.rhsBatch := by rw [hb]; exact List.not_mem_nil
  unfold DotDims.rhsIdx
  rw [dif_neg hnb, dif_pos hn]
  simp only [Fin.val_cast]
  have key : ∀ (x y : Nat) (hx : x < so.rank) (hy : y < so.rank), x = y → (j ⟨x, hx⟩).val = (j ⟨y, hy⟩).val :=
    fun x y hx hy h => by subst h; rfl
  exact key _ _ _ _ (by rw [hlb, ← hp]; simp)

end Dot

section Products
variable {m k n : Nat}

/-- Rows of the left operand against columns of the right: `(A·B)(i,c) = Σ_f A(i,f)·B(f,c)`. -/
theorem matmul_rowcol_apply (d : DotDims ⟨2, ![m, k]⟩ ⟨2, ![k, n]⟩ ⟨2, ![m, n]⟩)
    (hlb : d.lhsBatch = []) (hrb : d.rhsBatch = []) (hln : d.lhsNonContracting = [0]) (hrn : d.rhsNonContracting = [1])
    (hlc : d.lhsContracting = [1]) (hrc : d.rhsContracting = [0])
    (hr : d.contr.rank = 1) (hs : d.contr.size ⟨0, by omega⟩ = k) (prec : Option ContractPrecision)
    (A : FVec Ideal ⟨2, ![m, k]⟩ .f32) (B : FVec Ideal ⟨2, ![k, n]⟩ .f32) (i : Fin m) (c : Fin n) :
    matmul d prec A B (constant (F := Ideal) ⟨2, ![m, n]⟩ .f32 0x00000000#32) (ix2 i c)
      = ∑ f : Fin k, A (ix2 i f) * B (ix2 f c) := by
  show FloatOps.matmul d prec A B (constant (F := Ideal) ⟨2, ![m, n]⟩ .f32 0x00000000#32) (ix2 i c) = _
  rw [Ideal.matmul_constant_zero_apply, ← Equiv.sum_comp (contrEquiv1 d k hr hs).symm]
  refine Finset.sum_congr rfl fun f _ => ?_
  have hk := contrEquiv1_symm_val d k hr hs f
  have el : d.lhsIdx (ix2 i c) ((contrEquiv1 d k hr hs).symm f) = ix2 i f := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i c) ((contrEquiv1 d k hr hs).symm f) = ix2 f c := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

/-- Rows of the left operand against rows of the right: `Σ_e A(i,e)·B(j,e)`. -/
theorem matmul_rowrow_apply (d : DotDims ⟨2, ![m, k]⟩ ⟨2, ![n, k]⟩ ⟨2, ![m, n]⟩)
    (hlb : d.lhsBatch = []) (hrb : d.rhsBatch = []) (hln : d.lhsNonContracting = [0]) (hrn : d.rhsNonContracting = [0])
    (hlc : d.lhsContracting = [1]) (hrc : d.rhsContracting = [1])
    (hr : d.contr.rank = 1) (hs : d.contr.size ⟨0, by omega⟩ = k) (prec : Option ContractPrecision)
    (A : FVec Ideal ⟨2, ![m, k]⟩ .f32) (B : FVec Ideal ⟨2, ![n, k]⟩ .f32) (i : Fin m) (j : Fin n) :
    matmul d prec A B (constant (F := Ideal) ⟨2, ![m, n]⟩ .f32 0x00000000#32) (ix2 i j)
      = ∑ e : Fin k, A (ix2 i e) * B (ix2 j e) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun e _ => ?_
  have hk := contrEquiv1_symm_val d k hr hs e
  have el : d.lhsIdx (ix2 i j) ((contrEquiv1 d k hr hs).symm e) = ix2 i e := funext fun ax => Fin.ext (by
    match ax with
    | ⟨0, _⟩ =>
      exact lhsIdx_val_kept d hlb (al := 0) (by rw [hln]; exact List.mem_singleton.mpr rfl) (p := 0)
        (by rw [hln]; rfl) Nat.zero_lt_two _ _
    | ⟨1, _⟩ => exact (d.lhsIdx_val_of_single hlc _ _).trans hk)
  have er : d.rhsIdx (ix2 i j) ((contrEquiv1 d k hr hs).symm e) = ix2 j e := funext fun ax => Fin.ext (by
    match ax with
    | ⟨0, _⟩ =>
      exact rhsIdx_val_kept d hlb hrb (ar := 0) (by rw [hrn]; exact List.mem_singleton.mpr rfl) (p := 1)
        (by rw [hln, hrn]; rfl) Nat.one_lt_two _ _
    | ⟨1, _⟩ => exact (d.rhsIdx_val_of_single hrc _ _).trans hk)
  rw [el, er]

/-- Columns of the left operand against columns of the right: `Σ_v A(v,i)·B(v,j)`. -/
theorem matmul_colcol_apply (d : DotDims ⟨2, ![k, m]⟩ ⟨2, ![k, n]⟩ ⟨2, ![m, n]⟩)
    (hlb : d.lhsBatch = []) (hrb : d.rhsBatch = []) (hln : d.lhsNonContracting = [1]) (hrn : d.rhsNonContracting = [1])
    (hlc : d.lhsContracting = [0]) (hrc : d.rhsContracting = [0])
    (hr : d.contr.rank = 1) (hs : d.contr.size ⟨0, by omega⟩ = k) (prec : Option ContractPrecision)
    (A : FVec Ideal ⟨2, ![k, m]⟩ .f32) (B : FVec Ideal ⟨2, ![k, n]⟩ .f32) (i : Fin m) (j : Fin n) :
    matmul d prec A B (constant (F := Ideal) ⟨2, ![m, n]⟩ .f32 0x00000000#32) (ix2 i j)
      = ∑ v : Fin k, A (ix2 v i) * B (ix2 v j) := by
  show FloatOps.matmul d prec A B (constant (F := Ideal) ⟨2, ![m, n]⟩ .f32 0x00000000#32) (ix2 i j) = _
  rw [Ideal.matmul_constant_zero_apply, ← Equiv.sum_comp (contrEquiv1 d k hr hs).symm]
  refine Finset.sum_congr rfl fun v _ => ?_
  have hk := contrEquiv1_symm_val d k hr hs v
  have el : d.lhsIdx (ix2 i j) ((contrEquiv1 d k hr hs).symm v) = ix2 v i := funext fun ax => Fin.ext (by
    match ax with
    | ⟨0, _⟩ => exact (d.lhsIdx_val_of_single hlc _ _).trans hk
    | ⟨1, _⟩ =>
      exact lhsIdx_val_kept d hlb (al := 1) (by rw [hln]; exact List.mem_singleton.mpr rfl) (p := 0)
        (by rw [hln]; rfl) Nat.zero_lt_two _ _)
  have er : d.rhsIdx (ix2 i j) ((contrEquiv1 d k hr hs).symm v) = ix2 v j := funext fun ax => Fin.ext (by
    match ax with
    | ⟨0, _⟩ => exact (d.rhsIdx_val_of_single hrc _ _).trans hk
    | ⟨1, _⟩ =>
      exact rhsIdx_val_kept d hlb hrb (ar := 1) (by rw [hrn]; exact List.mem_singleton.mpr rfl) (p := 1)
        (by rw [hln, hrn]; rfl) Nat.one_lt_two _ _)
  rw [el, er]

end Products

/-! ## The diagonal test and the float literals -/

section Words

/-- Row `g·256 + r` against column `j`, compared as 32-bit words that do not wrap: the select is the `if`. -/
theorem select_shifted_eq {α : Type} (g r j : Nat) (hrow : g * 256 + r < 2 ^ 32) (hj : j < 2 ^ 32) (x y : α) :
    Scalar.select (IntOp.cmpi .eq (IntOp.addi (Scalar.muli (BitVec.ofNat 32 g) 256#32) (BitVec.ofNat 32 r))
        (BitVec.ofNat 32 j)) x y = if g * 256 + r = j then x else y := by
  have h1 : IntOp.addi (Scalar.muli (BitVec.ofNat 32 g) 256#32) (BitVec.ofNat 32 r) = BitVec.ofNat 32 (g * 256 + r) := by
    show BitVec.ofNat 32 g * BitVec.ofNat 32 256 + BitVec.ofNat 32 r = _
    rw [BitVec.ofNat_add, BitVec.ofNat_mul]
  rw [h1]
  have h2 : IntOp.cmpi .eq (BitVec.ofNat 32 (g * 256 + r)) (BitVec.ofNat 32 j) = (1 : BitVec 1) ↔ g * 256 + r = j := by
    show BitVec.ofBool (BitVec.ofNat 32 (g * 256 + r) == BitVec.ofNat 32 j) = (1 : BitVec 1) ↔ _
    constructor
    · intro h
      have hb : (BitVec.ofNat 32 (g * 256 + r) == BitVec.ofNat 32 j) = true := by
        cases hc : (BitVec.ofNat 32 (g * 256 + r) == BitVec.ofNat 32 j)
        · rw [hc] at h; exact absurd h (by decide)
        · rfl
      have he := congrArg BitVec.toNat (eq_of_beq hb)
      rw [BitVec.toNat_ofNat, BitVec.toNat_ofNat, Nat.mod_eq_of_lt hrow, Nat.mod_eq_of_lt hj] at he
      exact he
    · intro h
      rw [h, beq_self_eq_true]
      rfl
  unfold Scalar.select
  by_cases h : g * 256 + r = j
  · rw [if_pos h, if_pos (h2.mpr h)]
  · rw [if_neg h, if_neg (mt h2.mp h)]

/-- The word `0x3F800000` is the number one. -/
theorem ofBits_one_f32 : Ideal.ofBits .f32 0x3F800000#32 = 1 := IdealRules.sign_bit.ideal_onePat .f32

/-- The word `0xFF800000` is `-∞`. -/
theorem ofBits_negInf_f32 : Ideal.ofBits .f32 0xFF800000#32 = ⊥ := by
  simp [Ideal.ofBits, Ideal.ieee]

end Words

/-! ## One on the shifted diagonal, and a row-wise log-softmax -/

section Diagonal
variable {a b : Nat}

/-- The select that puts one where row `g·256 + r` meets column `j` and keeps `X` elsewhere, read at `(r, j)`. -/
theorem select_diag_apply (g : Nat) (h0 : (⟨2, ![a, b]⟩ : Shape).Iotas .tc 32 [0])
    (h1 : (⟨2, ![a, b]⟩ : Shape).Iotas .tc 32 [1]) (X : FVec Ideal ⟨2, ![a, b]⟩ .f32) (r : Fin a) (j : Fin b)
    (hrow : g * 256 + r.val < 2 ^ 32) (hj : j.val < 2 ^ 32) :
    select (cmpi .eq (addi (broadcast ⟨2, ![a, b]⟩ (Scalar.muli (BitVec.ofNat 32 g) 256#32))
          (iota .tc ⟨2, ![a, b]⟩ 32 [0] h0)) (iota .tc ⟨2, ![a, b]⟩ 32 [1] h1))
        (broadcast ⟨2, ![a, b]⟩ (Scalar.ofBits (F := Ideal) .f32 0x3F800000#32)) X (ix2 r j)
      = if g * 256 + r.val = j.val then (1 : EReal) else X (ix2 r j) := by
  show Scalar.select (IntOp.cmpi .eq (IntOp.addi (Scalar.muli (BitVec.ofNat 32 g) 256#32)
        (iota .tc ⟨2, ![a, b]⟩ 32 [0] h0 (ix2 r j))) (iota .tc ⟨2, ![a, b]⟩ 32 [1] h1 (ix2 r j)))
      (Ideal.ofBits .f32 0x3F800000#32) (X (ix2 r j)) = _
  rw [iota_single_apply, iota_single_apply, ofBits_one_f32]
  exact select_shifted_eq g r.val j.val hrow hj 1 (X (ix2 r j))

/-- The row-wise log-softmax as the layer body spells it — the row maximum kept as a column, subtracted, the
    exponentials summed along the row, the logarithm of the sum kept as a column and subtracted — read at `(r, c)`:
    `(Y(r,c) − M) − log Σ_k exp (Y(r,k) − M)` with `M` the maximum of row `r` from `-∞`. -/
theorem logSoftmax_rows_apply (Y : FVec Ideal ⟨2, ![a, b]⟩ .f32)
    (hR : (⟨2, ![a, b]⟩ : Shape).Reduces [1] ⟨1, ![a]⟩) (hC : (⟨1, ![a]⟩ : Shape).ShapeCasts ⟨2, ![a, 1]⟩)
    (hB : (⟨2, ![a, 1]⟩ : Shape).Broadcasts ⟨2, ![a, b]⟩) (hφ : FKind.Formats .f32)
    (hmax : (0xFF800000#32 : BitVec 32) = FKind.maximumf.neutral .f32 hφ)
    (hadd : (0x00000000#32 : BitVec 32) = FKind.add.neutral .f32 hφ) (r : Fin a) (c : Fin b)
    (x : Fin b → EReal) (hx : ∀ k, Y (ix2 r k) = x k) :
    subf (subf Y (broadcastTo ⟨2, ![a, b]⟩ (shapeCast ⟨2, ![a, 1]⟩
            (multiReduction .maximumf [1] ⟨1, ![a]⟩ Y 0xFF800000#32 hR hφ hmax) hC) hB))
        (broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB) (ix2 r c)
      = (x c - (Finset.univ : Finset (Fin b)).fold max ⊥ x)
          - Ideal.log (∑ k : Fin b, Ideal.exp (x k - (Finset.univ : Finset (Fin b)).fold max ⊥ x)) := by
  have hx' : (fun k => Y (ix2 r k)) = x := funext hx
  have hM : ∀ k : Fin b, broadcastTo ⟨2, ![a, b]⟩ (shapeCast ⟨2, ![a, 1]⟩
        (multiReduction .maximumf [1] ⟨1, ![a]⟩ Y 0xFF800000#32 hR hφ hmax) hC) hB (ix2 r k)
      = (Finset.univ : Finset (Fin b)).fold max ⊥ x := fun k => by
    rw [broadcastTo_col_apply, shapeCast_col_apply, rowMax_apply, ofBits_negInf_f32, hx']
  show (Y (ix2 r c) - broadcastTo ⟨2, ![a, b]⟩ (shapeCast ⟨2, ![a, 1]⟩
          (multiReduction .maximumf [1] ⟨1, ![a]⟩ Y 0xFF800000#32 hR hφ hmax) hC) hB (ix2 r c))
        - broadcastTo ⟨2, ![a, b]⟩ (log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC)) hB (ix2 r c) = _
  rw [hM c, broadcastTo_col_apply, hx c]
  show _ - Ideal.log (shapeCast ⟨2, ![a, 1]⟩
            (multiReduction .add [1] ⟨1, ![a]⟩ (exp (subf Y (broadcastTo ⟨2, ![a, b]⟩ (shapeCast ⟨2, ![a, 1]⟩
                (multiReduction .maximumf [1] ⟨1, ![a]⟩ Y 0xFF800000#32 hR hφ hmax) hC) hB)))
              0x00000000#32 hR hφ hadd) hC (ix2 r (0 : Fin 1))) = _
  rw [shapeCast_col_apply, rowSum_apply]
  refine congrArg (fun s => _ - Ideal.log s) (Finset.sum_congr rfl fun k _ => ?_)
  show Ideal.exp (Y (ix2 r k) - broadcastTo ⟨2, ![a, b]⟩ (shapeCast ⟨2, ![a, 1]⟩
          (multiReduction .maximumf [1] ⟨1, ![a]⟩ Y 0xFF800000#32 hR hφ hmax) hC) hB (ix2 r k)) = _
  rw [hM k, hx k]

end Diagonal

end Cert.KernelIdeal.Pay

end
-- ==== Proof.KernelBlocks0.lean ====
/-
  Region 0 of the kernel: the first layer's product, ten blocks of 5000 rows.

  At a grid point `t` the body multiplies rows `5000·t … 5000·t + 4999` of the feature matrix by the whole weight
  matrix (the change to a narrower float format is the identity on the extended reals) and the point writes the
  product back to the same rows of the output.  The ten blocks tile the 50000 rows, so the output array ends at the
  whole product `X · W`, whatever else the memory holds when the region is entered.
-/
import proofs.«130317_j78408922955888_2_alg».proof.Proof.Gen.KernelIdeal.Frame
import proofs.«130317_j78408922955888_2_alg».proof.Proof.GcnSpec
import proofs.«130317_j78408922955888_2_alg».proof.Proof.LibMatrixAtIndex
import Idealize.ShloMosaic.Lib.Pipeline.Value
import Idealize.ShloMosaic.Lib.ValueIdx

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zeroOffsets : (![0, 0] : Fin 2 → Nat) = fun _ => 0 := funext fun a => by fin_cases a <;> rfl

/-- One entry of the block product: row `r` of the feature block against column `j` of the weights. -/
theorem pay0_apply (x0 : Vec Ideal S5000x128 .f32) (x1 : Vec Ideal S128x96 .f32) (r : Fin 5000) (j : Fin 96) :
    k0_pay1 x0 x1 (ix2 r j) = ∑ c : Fin 128, x0 (ix2 r c) * x1 (ix2 c j) := by
  unfold k0_pay1
  exact Cert.KernelIdeal.Pay.matmul_rowcol_apply dot_S5000x128_S128x96_S5000x96_1_0_0_1_n_n rfl rfl rfl rfl rfl rfl rfl rfl none
    x0 x1 r j

/-- The block indices over the grid: the row blocks follow the point, the weights stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product. -/
theorem flushed0 (c : Dev nD) (t : Fin cfg0.N) :
    (dat0 V c).flushed 2 t
      = ((cfg0.win 2).blk t).view.read (Elt Ideal) (Gcn.mm (V c main_arg0) (V c main_arg1)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x96) zeroOffsets]
  obtain ⟨e0, e1, e2, e3, e4, e5⟩ := idx0 t
  funext y
  obtain ⟨r, j, rfl⟩ : ∃ (r : Fin 5000) (j : Fin 96), y = ix2 r j := ⟨y 0, y 1, eq_ix2 y⟩
  refine (pay0_apply (iblk0 V c 0 t) (iblk0 V c 1 t) r j).trans ?_
  show (∑ k : Fin 128, (fun (a b : EReal) => a * b) (V c main_arg0 (((cfg0.win 0).blk t).view.emb (ix2 r k))) (V c main_arg1 (((cfg0.win 1).blk t).view.emb (ix2 k j))))
    = ∑ k : Fin 128, (fun (a b : EReal) => a * b) (V c main_arg0 (ix2 ((((cfg0.win 2).blk t).view.emb (ix2 r j)) 0) k))
        (V c main_arg1 (ix2 k ((((cfg0.win 2).blk t).view.emb (ix2 r j)) 1)))
  refine Finset.sum_congr rfl fun k _ => ?_
  have h0 : ((cfg0.win 0).blk t).view.emb (ix2 r k) = ix2 ((((cfg0.win 2).blk t).view.emb (ix2 r j)) 0) k := by
    funext a; apply Fin.ext
    match a with
    | ⟨0, _⟩ => show win0_0.index t (0 : Fin 2) * 5000 + 1 * r.val = win0_2.index t (0 : Fin 2) * 5000 + 1 * r.val; omega
    | ⟨1, _⟩ => show win0_0.index t (1 : Fin 2) * 128 + 1 * k.val = k.val; omega
  have h1 : ((cfg0.win 1).blk t).view.emb (ix2 k j) = ix2 k ((((cfg0.win 2).blk t).view.emb (ix2 r j)) 1) := by
    funext a; apply Fin.ext
    match a with
    | ⟨0, _⟩ => show win0_1.index t (0 : Fin 2) * 128 + 1 * k.val = k.val; omega
    | ⟨1, _⟩ => show win0_1.index t (1 : Fin 2) * 96 + 1 * j.val = win0_2.index t (1 : Fin 2) * 96 + 1 * j.val; omega
  exact congrArg₂ (fun (a b : EReal) => a * b) (congrArg (V c main_arg0) h0) (congrArg (V c main_arg1) h1)

/-- An index of the output is in point `t`'s block iff each coordinate is in the block's range on its axis. -/
theorem mem_blk0 (t : Fin cfg0.N) (i : S50000x96.Idx) :
    i ∈ ((cfg0.win 2).blk t).view.set ↔ ∀ a : Fin 2, win0_2.index t a * S5000x96.size a ≤ (i a).val
      ∧ (i a).val < win0_2.index t a * S5000x96.size a + S5000x96.size a := by
  show i ∈ ((View.whole main_v4).slice (win0_2.rect t)).set ↔ _
  rw [View.set_slice_whole, Rect.mem_set_unit]
  exact Iff.rfl

/-- Every row belongs to the block of the point numbered by its quotient by 5000. -/
theorem cover0 (i : S50000x96.Idx) :
    ∃ t : Fin cfg0.N, (cfg0.win 2).flush t = true ∧ i ∈ ((cfg0.win 2).blk t).view.set := by
  have hi0 : (i 0).val < 50000 := (i 0).isLt
  have hi1 : (i 1).val < 96 := (i 1).isLt
  have ht : (i 0).val / 5000 < 10 := by omega
  obtain ⟨e0, e1, e2, e3, e4, e5⟩ := idx0 ⟨(i 0).val / 5000, ht⟩
  have e4' : win0_2.index ⟨(i 0).val / 5000, ht⟩ (0 : Fin 2) = (i 0).val / 5000 := e4
  refine ⟨⟨(i 0).val / 5000, ht⟩, flush0_2 _, ?_⟩
  rw [mem_blk0]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    omega
  | ⟨1, _⟩ =>
    show win0_2.index ⟨(i 0).val / 5000, ht⟩ (1 : Fin 2) * 96 ≤ (i 1).val
      ∧ (i 1).val < win0_2.index ⟨(i 0).val / 5000, ht⟩ (1 : Fin 2) * 96 + 96
    omega

/-- THE OUTPUT ARRAY of region 0 after its ten points: the whole product. -/
theorem final0 (c : Dev nD) :
    (dat0 V c).arrAt 2 cfg0.N = Gcn.mm (V c main_arg0) (V c main_arg1) :=
  (dat0 V c).arrAt_eq_of_cover 2 _ (fun t _ => flushed0 V c t) cover0

end Cert.KernelIdeal.Blocks

end
-- ==== Proof.KernelBlocks1.lean ====
/-
  Region 1 of the kernel: bias, rectifier and the next layer's product, ten blocks of 5000 rows.

  At a grid point `t` the body adds the bias row to rows `5000·t … 5000·t + 4999` of the aggregated matrix, takes the
  maximum with zero, and multiplies by the whole weight matrix (the change to a narrower float format is the identity
  on the extended reals); the point writes the product back to the same rows of the output.  The ten blocks tile
  the 50000 rows, so the output array ends at `max(A + b, 0) · W` as one matrix.
-/
import proofs.«130317_j78408922955888_2_alg».proof.Proof.Gen.KernelIdeal.Frame
import proofs.«130317_j78408922955888_2_alg».proof.Proof.GcnSpec
import proofs.«130317_j78408922955888_2_alg».proof.Proof.LibMatrixAtIndex
import proofs.«130317_j78408922955888_2_alg».proof.Proof.KernelBlocks0
import Idealize.ShloMosaic.Lib.Pipeline.Value
import Idealize.ShloMosaic.Lib.ValueIdx
import Idealize.ShloMosaic.Lib.ValueLayout

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- One entry of the block's result: the rectified, biased row `r` against column `j` of the weights. -/
theorem pay1_apply (x0 : Vec Ideal S5000x96 .f32) (x1 : Vec Ideal S1x96 .f32) (x2 : Vec Ideal S96x96 .f32)
    (r : Fin 5000) (j : Fin 96) :
    k1_pay1 x0 x1 x2 (ix2 r j)
      = ∑ k : Fin 96, max (x0 (ix2 r k) + x1 (ix2 (0 : Fin 1) k)) 0 * x2 (ix2 k j) := by
  unfold k1_pay1
  refine (Cert.KernelIdeal.Pay.matmul_rowcol_apply dot_S5000x96_S96x96_S5000x96_1_0_0_1_n_n rfl rfl rfl rfl rfl rfl rfl rfl none
    _ _ r j).trans ?_
  refine Finset.sum_congr rfl fun k _ => ?_
  refine congrArg (· * x2 (ix2 k j)) ?_
  show max (shapeCast S5000x96 x0 shapeCasts_S5000x96_S5000x96 (ix2 r k)
      + broadcastTo S5000x96 (shapeCast S1x96 x1 shapeCasts_S1x96_S1x96) broadcasts_S1x96_S5000x96 (ix2 r k))
      (Ideal.ofBits .f32 0x00000000#32) = _
  rw [shapeCast_self, shapeCast_self, broadcastTo_1b_ab_apply, Ideal.ofBits_zero_f32]

/-- The block indices over the grid: the row blocks follow the point; the bias and the weights stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the whole matrix `max(A + b, 0) · W`. -/
theorem flushed1 (c : Dev nD) (t : Fin cfg1.N) :
    (dat1 V c).flushed 3 t
      = ((cfg1.win 3).blk t).view.read (Elt Ideal)
          (Gcn.mm (Gcn.biasRelu (V c main_v14) (fun i => V c main_v15 (ix2 (0 : Fin 1) (i 0)))) (V c main_arg3)) := by
  show (cfg1.win 3).cut (grid1.coords t) ((dat1 V c).after 3 t) = _
  rw [after1_3]
  unfold out1_3
  rw [View.canon_unit_zero zeroOffsets]
  simp only [View.ld_unit_zero (S := S5000x96) zeroOffsets, View.ld_unit_zero (S := S1x96) zeroOffsets,
    View.ld_unit_zero (S := S96x96) zeroOffsets]
  obtain ⟨e0, e1, e2, e3, e4, e5, e6, e7⟩ := idx1 t
  funext y
  obtain ⟨r, j, rfl⟩ : ∃ (r : Fin 5000) (j : Fin 96), y = ix2 r j := ⟨y 0, y 1, eq_ix2 y⟩
  refine (pay1_apply (iblk1 V c 0 t) (iblk1 V c 1 t) (iblk1 V c 2 t) r j).trans ?_
  show (∑ k : Fin 96, (fun (a b : EReal) => a * b) ((fun (a b : EReal) => max (a + b) 0) (V c main_v14 (((cfg1.win 0).blk t).view.emb (ix2 r k)))
          (V c main_v15 (((cfg1.win 1).blk t).view.emb (ix2 (0 : Fin 1) k))))
        (V c main_arg3 (((cfg1.win 2).blk t).view.emb (ix2 k j))))
    = ∑ k : Fin 96, (fun (a b : EReal) => a * b) ((fun (a b : EReal) => max (a + b) 0) (V c main_v14 (ix2 ((((cfg1.win 3).blk t).view.emb (ix2 r j)) 0) k))
          (V c main_v15 (ix2 (0 : Fin 1) k)))
        (V c main_arg3 (ix2 k ((((cfg1.win 3).blk t).view.emb (ix2 r j)) 1)))
  refine Finset.sum_congr rfl fun k _ => ?_
  have h0 : ((cfg1.win 0).blk t).view.emb (ix2 r k) = ix2 ((((cfg1.win 3).blk t).view.emb (ix2 r j)) 0) k := by
    funext a; apply Fin.ext
    match a with
    | ⟨0, _⟩ => show win1_0.index t (0 : Fin 2) * 5000 + 1 * r.val = win1_3.index t (0 : Fin 2) * 5000 + 1 * r.val; omega
    | ⟨1, _⟩ => show win1_0.index t (1 : Fin 2) * 96 + 1 * k.val = k.val; omega
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 96 + 1 * k.val = k.val; omega
  have h2 : ((cfg1.win 2).blk t).view.emb (ix2 k j) = ix2 k ((((cfg1.win 3).blk t).view.emb (ix2 r j)) 1) := by
    funext a; apply Fin.ext
    match a with
    | ⟨0, _⟩ => show win1_2.index t (0 : Fin 2) * 96 + 1 * k.val = k.val; omega
    | ⟨1, _⟩ => show win1_2.index t (1 : Fin 2) * 96 + 1 * j.val = win1_3.index t (1 : Fin 2) * 96 + 1 * j.val; omega
  exact congrArg₂ (fun (a b : EReal) => a * b)
    (congrArg₂ (fun (a b : EReal) => max (a + b) 0) (congrArg (V c main_v14) h0) (congrArg (V c main_v15) h1))
    (congrArg (V c main_arg3) h2)

/-- An index of the output is in point `t`'s block iff each coordinate is in the block's range on its axis. -/
theorem mem_blk1 (t : Fin cfg1.N) (i : S50000x96.Idx) :
    i ∈ ((cfg1.win 3).blk t).view.set ↔ ∀ a : Fin 2, win1_3.index t a * S5000x96.size a ≤ (i a).val
      ∧ (i a).val < win1_3.index t a * S5000x96.size a + S5000x96.size a := by
  show i ∈ ((View.whole main_v16).slice (win1_3.rect t)).set ↔ _
  rw [View.set_slice_whole, Rect.mem_set_unit]
  exact Iff.rfl

/-- Every row belongs to the block of the point numbered by its quotient by 5000. -/
theorem cover1 (i : S50000x96.Idx) :
    ∃ t : Fin cfg1.N, (cfg1.win 3).flush t = true ∧ i ∈ ((cfg1.win 3).blk t).view.set := by
  have hi0 : (i 0).val < 50000 := (i 0).isLt
  have hi1 : (i 1).val < 96 := (i 1).isLt
  have ht : (i 0).val / 5000 < 10 := by omega
  obtain ⟨e0, e1, e2, e3, e4, e5, e6, e7⟩ := idx1 ⟨(i 0).val / 5000, ht⟩
  have e6' : win1_3.index ⟨(i 0).val / 5000, ht⟩ (0 : Fin 2) = (i 0).val / 5000 := e6
  refine ⟨⟨(i 0).val / 5000, ht⟩, flush1_3 _, ?_⟩
  rw [mem_blk1]
  intro a
  match a with
  | ⟨0, _⟩ =>
    show win1_3.index ⟨(i 0).val / 5000, ht⟩ (0 : Fin 2) * 5000 ≤ (i 0).val
      ∧ (i 0).val < win1_3.index ⟨(i 0).val / 5000, ht⟩ (0 : Fin 2) * 5000 + 5000
    omega
  | ⟨1, _⟩ =>
    show win1_3.index ⟨(i 0).val / 5000, ht⟩ (1 : Fin 2) * 96 ≤ (i 1).val
      ∧ (i 1).val < win1_3.index ⟨(i 0).val / 5000, ht⟩ (1 : Fin 2) * 96 + 96
    omega

/-- THE OUTPUT ARRAY of region 1 after its ten points. -/
theorem final1 (c : Dev nD) :
    (dat1 V c).arrAt 3 cfg1.N
      = Gcn.mm (Gcn.biasRelu (V c main_v14) (fun i => V c main_v15 (ix2 (0 : Fin 1) (i 0)))) (V c main_arg3) :=
  (dat1 V c).arrAt_eq_of_cover 3 _ (fun t _ => flushed1 V c t) cover1

end Cert.KernelIdeal.Blocks

end
-- ==== Proof.KernelBlocks2.lean ====
/-
  Region 2 of the kernel: bias, rectifier and the next layer's product, ten blocks of 5000 rows.

  At a grid point `t` the body adds the bias row to rows `5000·t … 5000·t + 4999` of the aggregated matrix, takes the
  maximum with zero, and multiplies by the whole weight matrix (the change to a narrower float format is the identity
  on the extended reals); the point writes the product back to the same rows of the output.  The ten blocks tile
  the 50000 rows, so the output array ends at `max(A + b, 0) · W` as one matrix.
-/
import proofs.«130317_j78408922955888_2_alg».proof.Proof.Gen.KernelIdeal.Frame
import proofs.«130317_j78408922955888_2_alg».proof.Proof.GcnSpec
import proofs.«130317_j78408922955888_2_alg».proof.Proof.LibMatrixAtIndex
import proofs.«130317_j78408922955888_2_alg».proof.Proof.KernelBlocks0
import Idealize.ShloMosaic.Lib.Pipeline.Value
import Idealize.ShloMosaic.Lib.ValueIdx
import Idealize.ShloMosaic.Lib.ValueLayout

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- One entry of the block's result: the rectified, biased row `r` against column `j` of the weights. -/
theorem pay2_apply (x0 : Vec Ideal S5000x96 .f32) (x1 : Vec Ideal S1x96 .f32) (x2 : Vec Ideal S96x40 .f32)
    (r : Fin 5000) (j : Fin 40) :
    k2_pay1 x0 x1 x2 (ix2 r j)
      = ∑ k : Fin 96, max (x0 (ix2 r k) + x1 (ix2 (0 : Fin 1) k)) 0 * x2 (ix2 k j) := by
  unfold k2_pay1
  refine (Cert.KernelIdeal.Pay.matmul_rowcol_apply dot_S5000x96_S96x40_S5000x40_1_0_0_1_n_n rfl rfl rfl rfl rfl rfl rfl rfl none
    _ _ r j).trans ?_
  refine Finset.sum_congr rfl fun k _ => ?_
  refine congrArg (· * x2 (ix2 k j)) ?_
  show max (shapeCast S5000x96 x0 shapeCasts_S5000x96_S5000x96 (ix2 r k)
      + broadcastTo S5000x96 (shapeCast S1x96 x1 shapeCasts_S1x96_S1x96) broadcasts_S1x96_S5000x96 (ix2 r k))
      (Ideal.ofBits .f32 0x00000000#32) = _
  rw [shapeCast_self, shapeCast_self, broadcastTo_1b_ab_apply, Ideal.ofBits_zero_f32]

/-- The block indices over the grid: the row blocks follow the point; the bias and the weights stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What point `t` writes back is block `t` of the whole matrix `max(A + b, 0) · W`. -/
theorem flushed2 (c : Dev nD) (t : Fin cfg2.N) :
    (dat2 V c).flushed 3 t
      = ((cfg2.win 3).blk t).view.read (Elt Ideal)
          (Gcn.mm (Gcn.biasRelu (V c main_v26) (fun i => V c main_v27 (ix2 (0 : Fin 1) (i 0)))) (V c main_arg5)) := by
  show (cfg2.win 3).cut (grid2.coords t) ((dat2 V c).after 3 t) = _
  rw [after2_3]
  unfold out2_3
  rw [View.canon_unit_zero zeroOffsets]
  simp only [View.ld_unit_zero (S := S5000x96) zeroOffsets, View.ld_unit_zero (S := S1x96) zeroOffsets,
    View.ld_unit_zero (S := S96x40) zeroOffsets]
  obtain ⟨e0, e1, e2, e3, e4, e5, e6, e7⟩ := idx2 t
  funext y
  obtain ⟨r, j, rfl⟩ : ∃ (r : Fin 5000) (j : Fin 40), y = ix2 r j := ⟨y 0, y 1, eq_ix2 y⟩
  refine (pay2_apply (iblk2 V c 0 t) (iblk2 V c 1 t) (iblk2 V c 2 t) r j).trans ?_
  show (∑ k : Fin 96, (fun (a b : EReal) => a * b) ((fun (a b : EReal) => max (a + b) 0) (V c main_v26 (((cfg2.win 0).blk t).view.emb (ix2 r k)))
          (V c main_v27 (((cfg2.win 1).blk t).view.emb (ix2 (0 : Fin 1) k))))
        (V c main_arg5 (((cfg2.win 2).blk t).view.emb (ix2 k j))))
    = ∑ k : Fin 96, (fun (a b : EReal) => a * b) ((fun (a b : EReal) => max (a + b) 0) (V c main_v26 (ix2 ((((cfg2.win 3).blk t).view.emb (ix2 r j)) 0) k))
          (V c main_v27 (ix2 (0 : Fin 1) k)))
        (V c main_arg5 (ix2 k ((((cfg2.win 3).blk t).view.emb (ix2 r j)) 1)))
  refine Finset.sum_congr rfl fun k _ => ?_
  have h0 : ((cfg2.win 0).blk t).view.emb (ix2 r k) = ix2 ((((cfg2.win 3).blk t).view.emb (ix2 r j)) 0) k := by
    funext a; apply Fin.ext
    match a with
    | ⟨0, _⟩ => show win2_0.index t (0 : Fin 2) * 5000 + 1 * r.val = win2_3.index t (0 : Fin 2) * 5000 + 1 * r.val; omega
    | ⟨1, _⟩ => show win2_0.index t (1 : Fin 2) * 96 + 1 * k.val = k.val; omega
  have h1 : ((cfg2.win 1).blk t).view.emb (ix2 (0 : Fin 1) k) = ix2 (0 : Fin 1) k := by
    funext a; apply Fin.ext
    match a with
    | ⟨0, _⟩ => show win2_1.index t (0 : Fin 2) * 1 + 1 * 0 = 0; omega
    | ⟨1, _⟩ => show win2_1.index t (1 : Fin 2) * 96 + 1 * k.val = k.val; omega
  have h2 : ((cfg2.win 2).blk t).view.emb (ix2 k j) = ix2 k ((((cfg2.win 3).blk t).view.emb (ix2 r j)) 1) := by
    funext a; apply Fin.ext
    match a with
    | ⟨0, _⟩ => show win2_2.index t (0 : Fin 2) * 96 + 1 * k.val = k.val; omega
    | ⟨1, _⟩ => show win2_2.index t (1 : Fin 2) * 40 + 1 * j.val = win2_3.index t (1 : Fin 2) * 40 + 1 * j.val; omega
  exact congrArg₂ (fun (a b : EReal) => a * b)
    (congrArg₂ (fun (a b : EReal) => max (a + b) 0) (congrArg (V c main_v26) h0) (congrArg (V c main_v27) h1))
    (congrArg (V c main_arg5) h2)

/-- An index of the output is in point `t`'s block iff each coordinate is in the block's range on its axis. -/
theorem mem_blk2 (t : Fin cfg2.N) (i : S50000x40.Idx) :
    i ∈ ((cfg2.win 3).blk t).view.set ↔ ∀ a : Fin 2, win2_3.index t a * S5000x40.size a ≤ (i a).val
      ∧ (i a).val < win2_3.index t a * S5000x40.size a + S5000x40.size a := by
  show i ∈ ((View.whole main_v28).slice (win2_3.rect t)).set ↔ _
  rw [View.set_slice_whole, Rect.mem_set_unit]
  exact Iff.rfl

/-- Every row belongs to the block of the point numbered by its quotient by 5000. -/
theorem cover2 (i : S50000x40.Idx) :
    ∃ t : Fin cfg2.N, (cfg2.win 3).flush t = true ∧ i ∈ ((cfg2.win 3).blk t).view.set := by
  have hi0 : (i 0).val < 50000 := (i 0).isLt
  have hi1 : (i 1).val < 40 := (i 1).isLt
  have ht : (i 0).val / 5000 < 10 := by omega
  obtain ⟨e0, e1, e2, e3, e4, e5, e6, e7⟩ := idx2 ⟨(i 0).val / 5000, ht⟩
  have e6' : win2_3.index ⟨(i 0).val / 5000, ht⟩ (0 : Fin 2) = (i 0).val / 5000 := e6
  refine ⟨⟨(i 0).val / 5000, ht⟩, flush2_3 _, ?_⟩
  rw [mem_blk2]
  intro a
  match a with
  | ⟨0, _⟩ =>
    show win2_3.index ⟨(i 0).val / 5000, ht⟩ (0 : Fin 2) * 5000 ≤ (i 0).val
      ∧ (i 0).val < win2_3.index ⟨(i 0).val / 5000, ht⟩ (0 : Fin 2) * 5000 + 5000
    omega
  | ⟨1, _⟩ =>
    show win2_3.index ⟨(i 0).val / 5000, ht⟩ (1 : Fin 2) * 40 ≤ (i 1).val
      ∧ (i 1).val < win2_3.index ⟨(i 0).val / 5000, ht⟩ (1 : Fin 2) * 40 + 40
    omega

/-- THE OUTPUT ARRAY of region 2 after its ten points. -/
theorem final2 (c : Dev nD) :
    (dat2 V c).arrAt 3 cfg2.N
      = Gcn.mm (Gcn.biasRelu (V c main_v26) (fun i => V c main_v27 (ix2 (0 : Fin 1) (i 0)))) (V c main_arg5) :=
  (dat2 V c).arrAt_eq_of_cover 3 _ (fun t _ => flushed2 V c t) cover2

end Cert.KernelIdeal.Blocks

end
-- ==== Proof.KernelBlocks3.lean ====
/-
  Region 3 of the kernel: the last bias and the row-wise log-softmax, ten blocks of 5000 rows.

  A row's log-softmax depends on that row alone: with `x k` the biased entries of the row and `M` their maximum, entry
  `j` is `(x j − M) − log Σ_k exp (x k − M)`.  So block `t` of the whole matrix's log-softmax is the log-softmax of
  block `t`, which is what point `t` computes and writes back; the ten blocks tile the 50000 rows.
-/
import proofs.«130317_j78408922955888_2_alg».proof.Proof.Gen.KernelIdeal.Frame
import proofs.«130317_j78408922955888_2_alg».proof.Proof.GcnSpec
import proofs.«130317_j78408922955888_2_alg».proof.Proof.LibMatrixAtIndex
import proofs.«130317_j78408922955888_2_alg».proof.Proof.KernelBlocks0
import Idealize.ShloMosaic.Lib.Pipeline.Value
import Idealize.ShloMosaic.Lib.ValueIdx
import Idealize.ShloMosaic.Lib.ValueLayout

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- One entry of the block's result, from the biased entries `x` of its row. -/
theorem pay3_apply (x0 : Vec Ideal S5000x40 .f32) (x1 : Vec Ideal S1x40 .f32) (r : Fin 5000) (j : Fin 40)
    (x : Fin 40 → EReal) (hx : ∀ k, x0 (ix2 r k) + x1 (ix2 (0 : Fin 1) k) = x k) :
    k3_pay1 x0 x1 (ix2 r j)
      = (x j - (Finset.univ : Finset (Fin 40)).fold max ⊥ x)
          - Ideal.log (∑ k : Fin 40, Ideal.exp (x k - (Finset.univ : Finset (Fin 40)).fold max ⊥ x)) := by
  unfold k3_pay1
  exact Cert.KernelIdeal.Pay.logSoftmax_rows_apply
    (addf (shapeCast S5000x40 x0 shapeCasts_S5000x40_S5000x40)
      (broadcastTo S5000x40 (shapeCast S1x40 x1 shapeCasts_S1x40_S1x40) broadcasts_S1x40_S5000x40))
    reduces_S5000x40_S5000 shapeCasts_S5000_S5000x1 broadcasts_S5000x1_S5000x40 (.inl rfl) rfl rfl r j x (fun k => by
      show shapeCast S5000x40 x0 shapeCasts_S5000x40_S5000x40 (ix2 r k)
        + broadcastTo S5000x40 (shapeCast S1x40 x1 shapeCasts_S1x40_S1x40) broadcasts_S1x40_S5000x40 (ix2 r k) = x k
      rw [shapeCast_self, shapeCast_self, broadcastTo_1b_ab_apply]
      exact hx k)

/-- The block indices over the grid: the row blocks follow the point; the bias stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the whole matrix's biased log-softmax. -/
theorem flushed3 (c : Dev nD) (t : Fin cfg3.N) :
    (dat3 V c).flushed 2 t
      = ((cfg3.win 2).blk t).view.read (Elt Ideal)
          (Gcn.logSoftmax (Gcn.addBias (V c main_v38) (fun i => V c main_v39 (ix2 (0 : Fin 1) (i 0))))) := by
  show (cfg3.win 2).cut (grid3.coords t) ((dat3 V c).after 2 t) = _
  rw [after3_2]
  unfold out3_2
  rw [View.canon_unit_zero zeroOffsets]
  simp only [View.ld_unit_zero (S := S5000x40) zeroOffsets, View.ld_unit_zero (S := S1x40) zeroOffsets]
  obtain ⟨e0, e1, e2, e3, e4, e5⟩ := idx3 t
  have htl : t.val < 10 := t.isLt
  funext y
  obtain ⟨r, j, rfl⟩ : ∃ (r : Fin 5000) (j : Fin 40), y = ix2 r j := ⟨y 0, y 1, eq_ix2 y⟩
  have hr : r.val < 5000 := r.isLt
  have hn : ((cfg3.win 2).blk t).view.emb (ix2 r j) = ix2 (⟨t.val * 5000 + r.val, by omega⟩ : Fin 50000) j := by
    funext a; apply Fin.ext
    match a with
    | ⟨0, _⟩ => show win3_2.index t (0 : Fin 2) * 5000 + 1 * r.val = t.val * 5000 + r.val; omega
    | ⟨1, _⟩ => show win3_2.index t (1 : Fin 2) * 40 + 1 * j.val = j.val; omega
  have h0 : ∀ k : Fin 40, ((cfg3.win 0).blk t).view.emb (ix2 r k) = ix2 (⟨t.val * 5000 + r.val, by omega⟩ : Fin 50000) k := fun k => by
    funext a; apply Fin.ext
    match a with
    | ⟨0, _⟩ => show win3_0.index t (0 : Fin 2) * 5000 + 1 * r.val = t.val * 5000 + r.val; omega
    | ⟨1, _⟩ => show win3_0.index t (1 : Fin 2) * 40 + 1 * k.val = k.val; omega
  have h1 : ∀ k : Fin 40, ((cfg3.win 1).blk t).view.emb (ix2 (0 : Fin 1) k) = ix2 (0 : Fin 1) k := fun k => by
    funext a; apply Fin.ext
    match a with
    | ⟨0, _⟩ => show win3_1.index t (0 : Fin 2) * 1 + 1 * 0 = 0; omega
    | ⟨1, _⟩ => show win3_1.index t (1 : Fin 2) * 40 + 1 * k.val = k.val; omega
  refine (pay3_apply (iblk3 V c 0 t) (iblk3 V c 1 t) r j
    (fun k => (fun (a b : EReal) => a + b) (V c main_v38 (ix2 (⟨t.val * 5000 + r.val, by omega⟩ : Fin 50000) k)) (V c main_v39 (ix2 (0 : Fin 1) k)))
    (fun k => ?_)).trans ?_
  · exact congrArg₂ (fun (a b : EReal) => a + b) (congrArg (V c main_v38) (h0 k)) (congrArg (V c main_v39) (h1 k))
  · rw [View.read_apply, hn]
    rfl

/-- An index of the output is in point `t`'s block iff each coordinate is in the block's range on its axis. -/
theorem mem_blk3 (t : Fin cfg3.N) (i : S50000x40.Idx) :
    i ∈ ((cfg3.win 2).blk t).view.set ↔ ∀ a : Fin 2, win3_2.index t a * S5000x40.size a ≤ (i a).val
      ∧ (i a).val < win3_2.index t a * S5000x40.size a + S5000x40.size a := by
  show i ∈ ((View.whole main_v40).slice (win3_2.rect t)).set ↔ _
  rw [View.set_slice_whole, Rect.mem_set_unit]
  exact Iff.rfl

/-- Every row belongs to the block of the point numbered by its quotient by 5000. -/
theorem cover3 (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  have ht : (i 0).val / 5000 < 10 := by omega
  obtain ⟨e0, e1, e2, e3, e4, e5⟩ := idx3 ⟨(i 0).val / 5000, ht⟩
  have e4' : win3_2.index ⟨(i 0).val / 5000, ht⟩ (0 : Fin 2) = (i 0).val / 5000 := e4
  refine ⟨⟨(i 0).val / 5000, ht⟩, flush3_2 _, ?_⟩
  rw [mem_blk3]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    omega
  | ⟨1, _⟩ =>
    show win3_2.index ⟨(i 0).val / 5000, ht⟩ (1 : Fin 2) * 40 ≤ (i 1).val
      ∧ (i 1).val < win3_2.index ⟨(i 0).val / 5000, ht⟩ (1 : Fin 2) * 40 + 40
    omega

/-- THE OUTPUT ARRAY of region 3 after its ten points: the biased matrix's row-wise log-softmax. -/
theorem final3 (c : Dev nD) :
    (dat3 V c).arrAt 2 cfg3.N
      = Gcn.logSoftmax (Gcn.addBias (V c main_v38) (fun i => V c main_v39 (ix2 (0 : Fin 1) (i 0)))) :=
  (dat3 V c).arrAt_eq_of_cover 2 _ (fun t _ => flushed3 V c t) cover3

end Cert.KernelIdeal.Blocks

end
-- ==== Proof.KernelFold.lean ====
/-
  The kernel program's buffers, boundary by boundary, as functions of the launch memory.

  Between the four grid regions the host normalises the source words, gathers the previous region's output at the
  sources, accumulates the gathered rows at the destinations into zeros (together: the aggregation) and reshapes the
  next bias into a one-row matrix.  Reading each stretch on an arbitrary valuation and each region at arbitrary entry
  contents, the chain from the launch memory to the last region's output is: product, aggregate, bias-rectify-product,
  aggregate, bias-rectify-product, aggregate, bias and row-wise log-softmax — the weights-first arrangement.
-/
import proofs.«130317_j78408922955888_2_alg».proof.Proof.KernelBlocks0
import proofs.«130317_j78408922955888_2_alg».proof.Proof.KernelBlocks1
import proofs.«130317_j78408922955888_2_alg».proof.Proof.KernelBlocks2
import proofs.«130317_j78408922955888_2_alg».proof.Proof.KernelBlocks3
import Idealize.ShloMosaic.Lib.StableHlo.Run
import Idealize.ShloMosaic.Lib.ValueLayout

noncomputable section

namespace Cert.KernelIdeal.Fold

open Cert.KernelIdeal Cert.KernelIdeal.Gen Idealize.ShloMosaic Idealize.ShloMosaic.TcCoe Idealize.ShloMosaic.ValueIdx
open Idealize.SL.Sem Idealize.ShloMosaic.StableHlo

/-! ## The index words -/

/-- Row 0 of the edge list: the raw source words. -/
def srcRow (e7 : IVec S2x800000 32) : IVec S800000 32 :=
  shapeCast S800000 (extractStridedSlice S1x800000 ![0, 0] e7 slices_S2x800000_S1x800000_0_0) shapeCasts_S1x800000_S800000
/-- Row 1 of the edge list: the raw destination words. -/
def dstRow (e7 : IVec S2x800000 32) : IVec S800000 32 :=
  shapeCast S800000 (extractStridedSlice S1x800000 ![1, 0] e7 slices_S2x800000_S1x800000_1_0) shapeCasts_S1x800000_S800000
/-- The source words as a gather takes them: a negative word moved up by the node count, as one column. -/
def srcWords (v1 : IVec S800000 32) : IVec S800000x1 32 :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)
/-- The destination words as a scatter takes them: one column. -/
def dstWords (v3 : IVec S800000 32) : IVec S800000x1 32 := broadcastInDim S800000x1 ![0] bcast_S800000_S800000x1_0 v3

/-- A bias reshaped to one row and read back along that row is the bias. -/
theorem biasRow_eq {d : Nat} (b : (⟨1, ![d]⟩ : Shape).Idx → EReal) (h : (⟨1, ![d]⟩ : Shape).ShapeCasts ⟨2, ![1, d]⟩) :
    (fun i : (⟨1, ![d]⟩ : Shape).Idx => shapeCast ⟨2, ![1, d]⟩ b h (ix2 (0 : Fin 1) (i 0))) = b := by
  funext i
  obtain ⟨k, rfl⟩ : ∃ k : Fin d, i = ix1 k := ⟨i 0, eq_ix1 i⟩
  exact shapeCast_a_1a_apply b h 0 k

/-! ## The host stretches, on any valuation -/

section Host
variable (W : Valuation τ sig (Elt Ideal))

theorem host0_v1 : after hostOps0 W (Proc.devRef .tc main_v1) = srcRow (W (Proc.devRef .tc main_arg7)) := by after_results; rfl
theorem host0_v3 : after hostOps0 W (Proc.devRef .tc main_v3) = dstRow (W (Proc.devRef .tc main_arg7)) := by after_results; rfl
theorem host0_arg0 : after hostOps0 W (Proc.devRef .tc main_arg0) = W (Proc.devRef .tc main_arg0) := by after_results
theorem host0_arg1 : after hostOps0 W (Proc.devRef .tc main_arg1) = W (Proc.devRef .tc main_arg1) := by after_results
theorem host0_arg2 : after hostOps0 W (Proc.devRef .tc main_arg2) = W (Proc.devRef .tc main_arg2) := by after_results
theorem host0_arg3 : after hostOps0 W (Proc.devRef .tc main_arg3) = W (Proc.devRef .tc main_arg3) := by after_results
theorem host0_arg4 : after hostOps0 W (Proc.devRef .tc main_arg4) = W (Proc.devRef .tc main_arg4) := by after_results
theorem host0_arg5 : after hostOps0 W (Proc.devRef .tc main_arg5) = W (Proc.devRef .tc main_arg5) := by after_results
theorem host0_arg6 : after hostOps0 W (Proc.devRef .tc main_arg6) = W (Proc.devRef .tc main_arg6) := by after_results

theorem host1_v14 : after hostOps1 W (Proc.devRef .tc main_v14)
    = Gcn.aggr (N := 50000) (E := 800000) (by decide) (srcWords (W (Proc.devRef .tc main_v1))) (dstWords (W (Proc.devRef .tc main_v3))) (W (Proc.devRef .tc main_v4)) := by
  after_results
  exact Gcn.gatherScatter_eq_aggr (by decide) gather_S50000x96_S800000x1_S800000x96_1_0_n_n_0_1_196_wf
    scatter_S50000x96_S800000x1_S800000x96_1_0_0_1_wf _ _ _ _ (fun _ => Ideal.ofBits_zero_f32)
theorem host1_v15 : after hostOps1 W (Proc.devRef .tc main_v15) = shapeCast S1x96 (W (Proc.devRef .tc main_arg2)) shapeCasts_S96_S1x96 := by
  after_results; rfl
theorem host1_v1 : after hostOps1 W (Proc.devRef .tc main_v1) = W (Proc.devRef .tc main_v1) := by after_results
theorem host1_v3 : after hostOps1 W (Proc.devRef .tc main_v3) = W (Proc.devRef .tc main_v3) := by after_results
theorem host1_arg3 : after hostOps1 W (Proc.devRef .tc main_arg3) = W (Proc.devRef .tc main_arg3) := by after_results
theorem host1_arg4 : after hostOps1 W (Proc.devRef .tc main_arg4) = W (Proc.devRef .tc main_arg4) := by after_results
theorem host1_arg5 : after hostOps1 W (Proc.devRef .tc main_arg5) = W (Proc.devRef .tc main_arg5) := by after_results
theorem host1_arg6 : after hostOps1 W (Proc.devRef .tc main_arg6) = W (Proc.devRef .tc main_arg6) := by after_results

theorem host2_v26 : after hostOps2 W (Proc.devRef .tc main_v26)
    = Gcn.aggr (N := 50000) (E := 800000) (by decide) (srcWords (W (Proc.devRef .tc main_v1))) (dstWords (W (Proc.devRef .tc main_v3))) (W (Proc.devRef .tc main_v16)) := by
  after_results
  exact Gcn.gatherScatter_eq_aggr (by decide) gather_S50000x96_S800000x1_S800000x96_1_0_n_n_0_1_196_wf
    scatter_S50000x96_S800000x1_S800000x96_1_0_0_1_wf _ _ _ _ (fun _ => Ideal.ofBits_zero_f32)
theorem host2_v27 : after hostOps2 W (Proc.devRef .tc main_v27) = shapeCast S1x96 (W (Proc.devRef .tc main_arg4)) shapeCasts_S96_S1x96 := by
  after_results; rfl
theorem host2_v1 : after hostOps2 W (Proc.devRef .tc main_v1) = W (Proc.devRef .tc main_v1) := by after_results
theorem host2_v3 : after hostOps2 W (Proc.devRef .tc main_v3) = W (Proc.devRef .tc main_v3) := by after_results
theorem host2_arg5 : after hostOps2 W (Proc.devRef .tc main_arg5) = W (Proc.devRef .tc main_arg5) := by after_results
theorem host2_arg6 : after hostOps2 W (Proc.devRef .tc main_arg6) = W (Proc.devRef .tc main_arg6) := by after_results

theorem host3_v38 : after hostOps3 W (Proc.devRef .tc main_v38)
    = Gcn.aggr (N := 50000) (E := 800000) (by decide) (srcWords (W (Proc.devRef .tc main_v1))) (dstWords (W (Proc.devRef .tc main_v3))) (W (Proc.devRef .tc main_v28)) := by
  after_results
  exact Gcn.gatherScatter_eq_aggr (by decide) gather_S50000x40_S800000x1_S800000x40_1_0_n_n_0_1_140_wf
    scatter_S50000x40_S800000x1_S800000x40_1_0_0_1_wf _ _ _ _ (fun _ => Ideal.ofBits_zero_f32)
theorem host3_v39 : after hostOps3 W (Proc.devRef .tc main_v39) = shapeCast S1x40 (W (Proc.devRef .tc main_arg6)) shapeCasts_S40_S1x40 := by
  after_results; rfl

end Host

/-! ## The chain from the launch memory -/

section Chain
variable (m : (ℓ : Loc nD τ sig) → Buf (Elt Ideal) ℓ) (ρ : Dev nD → PrngReg) (c : Dev nD)

/-- The source and destination words of the launch memory's edge list. -/
abbrev src : IVec S800000x1 32 := srcWords (srcRow (m ((c : Thread nD τ).loc main_arg7)))
abbrev dst : IVec S800000x1 32 := dstWords (dstRow (m ((c : Thread nD τ).loc main_arg7)))

/-! ### After the first stretch (region 0's entry) -/
theorem at1_v1 : W1 m ρ c (Proc.devRef .tc main_v1) = srcRow (m ((c : Thread nD τ).loc main_arg7)) := host0_v1 _
theorem at1_v3 : W1 m ρ c (Proc.devRef .tc main_v3) = dstRow (m ((c : Thread nD τ).loc main_arg7)) := host0_v3 _
theorem at1_arg0 : W1 m ρ c (Proc.devRef .tc main_arg0) = m ((c : Thread nD τ).loc main_arg0) := host0_arg0 _
theorem at1_arg1 : W1 m ρ c (Proc.devRef .tc main_arg1) = m ((c : Thread nD τ).loc main_arg1) := host0_arg1 _
theorem at1_arg2 : W1 m ρ c (Proc.devRef .tc main_arg2) = m ((c : Thread nD τ).loc main_arg2) := host0_arg2 _
theorem at1_arg3 : W1 m ρ c (Proc.devRef .tc main_arg3) = m ((c : Thread nD τ).loc main_arg3) := host0_arg3 _
theorem at1_arg4 : W1 m ρ c (Proc.devRef .tc main_arg4) = m ((c : Thread nD τ).loc main_arg4) := host0_arg4 _
theorem at1_arg5 : W1 m ρ c (Proc.devRef .tc main_arg5) = m ((c : Thread nD τ).loc main_arg5) := host0_arg5 _
theorem at1_arg6 : W1 m ρ c (Proc.devRef .tc main_arg6) = m ((c : Thread nD τ).loc main_arg6) := host0_arg6 _

/-! ### After region 0: the first product -/
theorem at2_v4 : W2 m ρ c (Proc.devRef .tc main_v4) = Gcn.mm (m ((c : Thread nD τ).loc main_arg0)) (m ((c : Thread nD τ).loc main_arg1)) :=
  (W2_arr m ρ c 2).trans ((Blocks.final0 (V1 m ρ) c).trans (congrArg₂ Gcn.mm (at1_arg0 m ρ c) (at1_arg1 m ρ c)))
theorem at2_v1 : W2 m ρ c (Proc.devRef .tc main_v1) = srcRow (m ((c : Thread nD τ).loc main_arg7)) := (W2_of_ne m ρ c main_v1 (by decide)).trans (at1_v1 m ρ c)
theorem at2_v3 : W2 m ρ c (Proc.devRef .tc main_v3) = dstRow (m ((c : Thread nD τ).loc main_arg7)) := (W2_of_ne m ρ c main_v3 (by decide)).trans (at1_v3 m ρ c)
theorem at2_arg2 : W2 m ρ c (Proc.devRef .tc main_arg2) = m ((c : Thread nD τ).loc main_arg2) := (W2_of_ne m ρ c main_arg2 (by decide)).trans (at1_arg2 m ρ c)
theorem at2_arg3 : W2 m ρ c (Proc.devRef .tc main_arg3) = m ((c : Thread nD τ).loc main_arg3) := (W2_of_ne m ρ c main_arg3 (by decide)).trans (at1_arg3 m ρ c)
theorem at2_arg4 : W2 m ρ c (Proc.devRef .tc main_arg4) = m ((c : Thread nD τ).loc main_arg4) := (W2_of_ne m ρ c main_arg4 (by decide)).trans (at1_arg4 m ρ c)
theorem at2_arg5 : W2 m ρ c (Proc.devRef .tc main_arg5) = m ((c : Thread nD τ).loc main_arg5) := (W2_of_ne m ρ c main_arg5 (by decide)).trans (at1_arg5 m ρ c)
theorem at2_arg6 : W2 m ρ c (Proc.devRef .tc main_arg6) = m ((c : Thread nD τ).loc main_arg6) := (W2_of_ne m ρ c main_arg6 (by decide)).trans (at1_arg6 m ρ c)

/-! ### After the second stretch: the first aggregation and the first bias as a row -/
theorem at3_v14 : W3 m ρ c (Proc.devRef .tc main_v14)
    = Gcn.aggr (N := 50000) (E := 800000) (by decide) (src m c) (dst m c) (Gcn.mm (m ((c : Thread nD τ).loc main_arg0)) (m ((c : Thread nD τ).loc main_arg1))) := by
  refine (host1_v14 (W2 m ρ c)).trans ?_
  rw [at2_v1, at2_v3, at2_v4]
theorem at3_v15 : W3 m ρ c (Proc.devRef .tc main_v15) = shapeCast S1x96 (m ((c : Thread nD τ).loc main_arg2)) shapeCasts_S96_S1x96 := by
  refine (host1_v15 (W2 m ρ c)).trans ?_
  rw [at2_arg2]
theorem at3_v1 : W3 m ρ c (Proc.devRef .tc main_v1) = srcRow (m ((c : Thread nD τ).loc main_arg7)) := (host1_v1 _).trans (at2_v1 m ρ c)
theorem at3_v3 : W3 m ρ c (Proc.devRef .tc main_v3) = dstRow (m ((c : Thread nD τ).loc main_arg7)) := (host1_v3 _).trans (at2_v3 m ρ c)
theorem at3_arg3 : W3 m ρ c (Proc.devRef .tc main_arg3) = m ((c : Thread nD τ).loc main_arg3) := (host1_arg3 _).trans (at2_arg3 m ρ c)
theorem at3_arg4 : W3 m ρ c (Proc.devRef .tc main_arg4) = m ((c : Thread nD τ).loc main_arg4) := (host1_arg4 _).trans (at2_arg4 m ρ c)
theorem at3_arg5 : W3 m ρ c (Proc.devRef .tc main_arg5) = m ((c : Thread nD τ).loc main_arg5) := (host1_arg5 _).trans (at2_arg5 m ρ c)
theorem at3_arg6 : W3 m ρ c (Proc.devRef .tc main_arg6) = m ((c : Thread nD τ).loc main_arg6) := (host1_arg6 _).trans (at2_arg6 m ρ c)

/-- The first layer's output, weights first. -/
abbrev stage1 : Gcn.Mat 50000 96 :=
  Gcn.aggr (N := 50000) (E := 800000) (by decide) (src m c) (dst m c) (Gcn.mm (m ((c : Thread nD τ).loc main_arg0)) (m ((c : Thread nD τ).loc main_arg1)))

/-! ### After region 1: bias, rectifier and the second product -/
theorem at4_v16 : W4 m ρ c (Proc.devRef .tc main_v16) = Gcn.mm (Gcn.biasRelu (stage1 m c) (m ((c : Thread nD τ).loc main_arg2))) (m ((c : Thread nD τ).loc main_arg3)) := by
  refine (W4_arr m ρ c 3).trans ((Blocks.final1 (V3 m ρ) c).trans ?_)
  show Gcn.mm (Gcn.biasRelu (W3 m ρ c (Proc.devRef .tc main_v14)) (fun i => W3 m ρ c (Proc.devRef .tc main_v15) (ix2 (0 : Fin 1) (i 0))))
      (W3 m ρ c (Proc.devRef .tc main_arg3)) = _
  rw [at3_v14, at3_v15, at3_arg3, biasRow_eq]
theorem at4_v1 : W4 m ρ c (Proc.devRef .tc main_v1) = srcRow (m ((c : Thread nD τ).loc main_arg7)) := (W4_of_ne m ρ c main_v1 (by decide)).trans (at3_v1 m ρ c)
theorem at4_v3 : W4 m ρ c (Proc.devRef .tc main_v3) = dstRow (m ((c : Thread nD τ).loc main_arg7)) := (W4_of_ne m ρ c main_v3 (by decide)).trans (at3_v3 m ρ c)
theorem at4_arg4 : W4 m ρ c (Proc.devRef .tc main_arg4) = m ((c : Thread nD τ).loc main_arg4) := (W4_of_ne m ρ c main_arg4 (by decide)).trans (at3_arg4 m ρ c)
theorem at4_arg5 : W4 m ρ c (Proc.devRef .tc main_arg5) = m ((c : Thread nD τ).loc main_arg5) := (W4_of_ne m ρ c main_arg5 (by decide)).trans (at3_arg5 m ρ c)
theorem at4_arg6 : W4 m ρ c (Proc.devRef .tc main_arg6) = m ((c : Thread nD τ).loc main_arg6) := (W4_of_ne m ρ c main_arg6 (by decide)).trans (at3_arg6 m ρ c)

/-- The second layer's output, weights first. -/
abbrev stage2 : Gcn.Mat 50000 96 :=
  Gcn.aggr (N := 50000) (E := 800000) (by decide) (src m c) (dst m c) (Gcn.mm (Gcn.biasRelu (stage1 m c) (m ((c : Thread nD τ).loc main_arg2))) (m ((c : Thread nD τ).loc main_arg3)))

/-! ### After the third stretch -/
theorem at5_v26 : W5 m ρ c (Proc.devRef .tc main_v26) = stage2 m c := by
  refine (host2_v26 (W4 m ρ c)).trans ?_
  rw [at4_v1, at4_v3, at4_v16]
theorem at5_v27 : W5 m ρ c (Proc.devRef .tc main_v27) = shapeCast S1x96 (m ((c : Thread nD τ).loc main_arg4)) shapeCasts_S96_S1x96 := by
  refine (host2_v27 (W4 m ρ c)).trans ?_
  rw [at4_arg4]
theorem at5_v1 : W5 m ρ c (Proc.devRef .tc main_v1) = srcRow (m ((c : Thread nD τ).loc main_arg7)) := (host2_v1 _).trans (at4_v1 m ρ c)
theorem at5_v3 : W5 m ρ c (Proc.devRef .tc main_v3) = dstRow (m ((c : Thread nD τ).loc main_arg7)) := (host2_v3 _).trans (at4_v3 m ρ c)
theorem at5_arg5 : W5 m ρ c (Proc.devRef .tc main_arg5) = m ((c : Thread nD τ).loc main_arg5) := (host2_arg5 _).trans (at4_arg5 m ρ c)
theorem at5_arg6 : W5 m ρ c (Proc.devRef .tc main_arg6) = m ((c : Thread nD τ).loc main_arg6) := (host2_arg6 _).trans (at4_arg6 m ρ c)

/-! ### After region 2: bias, rectifier and the third product -/
theorem at6_v28 : W6 m ρ c (Proc.devRef .tc main_v28) = Gcn.mm (Gcn.biasRelu (stage2 m c) (m ((c : Thread nD τ).loc main_arg4))) (m ((c : Thread nD τ).loc main_arg5)) := by
  refine (W6_arr m ρ c 3).trans ((Blocks.final2 (V5 m ρ) c).trans ?_)
  show Gcn.mm (Gcn.biasRelu (W5 m ρ c (Proc.devRef .tc main_v26)) (fun i => W5 m ρ c (Proc.devRef .tc main_v27) (ix2 (0 : Fin 1) (i 0))))
      (W5 m ρ c (Proc.devRef .tc main_arg5)) = _
  rw [at5_v26, at5_v27, at5_arg5, biasRow_eq]
theorem at6_v1 : W6 m ρ c (Proc.devRef .tc main_v1) = srcRow (m ((c : Thread nD τ).loc main_arg7)) := (W6_of_ne m ρ c main_v1 (by decide)).trans (at5_v1 m ρ c)
theorem at6_v3 : W6 m ρ c (Proc.devRef .tc main_v3) = dstRow (m ((c : Thread nD τ).loc main_arg7)) := (W6_of_ne m ρ c main_v3 (by decide)).trans (at5_v3 m ρ c)
theorem at6_arg6 : W6 m ρ c (Proc.devRef .tc main_arg6) = m ((c : Thread nD τ).loc main_arg6) := (W6_of_ne m ρ c main_arg6 (by decide)).trans (at5_arg6 m ρ c)

/-! ### After the last stretch -/
theorem at7_v38 : W7 m ρ c (Proc.devRef .tc main_v38)
    = Gcn.aggr (N := 50000) (E := 800000) (by decide) (src m c) (dst m c) (Gcn.mm (Gcn.biasRelu (stage2 m c) (m ((c : Thread nD τ).loc main_arg4))) (m ((c : Thread nD τ).loc main_arg5))) := by
  refine (host3_v38 (W6 m ρ c)).trans ?_
  rw [at6_v1, at6_v3, at6_v28]
theorem at7_v39 : W7 m ρ c (Proc.devRef .tc main_v39) = shapeCast S1x40 (m ((c : Thread nD τ).loc main_arg6)) shapeCasts_S40_S1x40 := by
  refine (host3_v39 (W6 m ρ c)).trans ?_
  rw [at6_arg6]

/-! ### After region 3: the result -/

/-- THE RESULT BUFFER at the last boundary: the weights-first graph convolution of the launch arguments. -/
theorem result : W8 m ρ c (Proc.devRef .tc main_v40)
    = Gcn.productFirst (N := 50000) (E := 800000) (by decide) (src m c) (dst m c)
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W8_arr m ρ c 2).trans ((Blocks.final3 (V7 m ρ) c).trans ?_)
  show Gcn.logSoftmax (Gcn.addBias (W7 m ρ c (Proc.devRef .tc main_v38)) (fun i => W7 m ρ c (Proc.devRef .tc main_v39) (ix2 (0 : Fin 1) (i 0)))) = _
  rw [at7_v38, at7_v39, biasRow_eq]
  rfl

end Chain

end Cert.KernelIdeal.Fold

end
-- ==== Proof.RefRun.lean ====
/-
  The reference program's run, read one layer at a time.

  The reference is a straight line of 76 host operations: three graph-convolution layers (normalise the source
  words, gather, accumulate by destination, multiply by the weights, add the bias, rectify — the last layer without
  the rectifier) and a row-wise log-softmax.  Each stretch writes its result as a function of a few earlier
  buffers, so the whole run is the composition of four short stretches rather than one 76-deep term: after the
  first stretch the first layer's output holds its stage of the arguments, and so on to the result.
-/
import proofs.«130317_j78408922955888_2_alg».proof.Proof.RefReadP
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- Running two stretches one after the other is running their concatenation. -/
theorem after_append (l1 l2 : List (HloOp τ sig (Elt F))) (V : Valuation τ sig (Elt F)) :
    after (l1 ++ l2) V = after l2 (after l1 V) := by
  induction l1 generalizing V with
  | nil => rfl
  | cons op l ih => exact ih (op.result V)

/-- The first layer: operations 0 to 23 of the program. -/
abbrev layer1 : List (HloOp τ sig (Elt F)) :=
  [ unary main_arg7 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg7 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v13 main_arg1 main_v14 ((fun l r => Host.dotGeneral dot_S50000x128_S128x96_S50000x96_1_0_0_1_n_n none l r) : (⟨S50000x128, .f32⟩ : BufTy).Contents (Elt F) → (⟨S128x96, .f32⟩ : BufTy).Contents (Elt F) → (⟨S50000x96, .f32⟩ : BufTy).Contents (Elt F)),
    unary main_arg2 main_v15 (broadcastInDim S1x96 ![1] bcast_S96_S1x96_1 : (⟨S96, .f32⟩ : BufTy).Contents (Elt F) → (⟨S1x96, .f32⟩ : BufTy).Contents (Elt F)),
    unary main_v15 main_v16 (broadcastInDim S50000x96 ![0, 1] bcast_S1x96_S50000x96_0_1 : (⟨S1x96, .f32⟩ : BufTy).Contents (Elt F) → (⟨S50000x96, .f32⟩ : BufTy).Contents (Elt F)),
    binary main_v14 main_v16 main_v17 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x96, .f32⟩) main_call0_v0) (broadcastInDim S50000x96 ![] bcast_S_S50000x96),
    TRef.binary (TRef.of (T := ⟨S50000x96, .f32⟩) main_v17) (TRef.of (T := ⟨S50000x96, .f32⟩) main_call0_v0) (TRef.of (T := ⟨S50000x96, .f32⟩) main_v18) maximumf ]

/-- The second layer: operations 24 to 43. -/
abbrev layer2 : List (HloOp τ sig (Elt F)) :=
  [ nullary main_c_1 (constantI S_ 32 0#32),
    unary main_c_1 main_v19 (broadcastInDim S800000 ![] bcast_S_S800000 : (⟨S_, .i32⟩ : BufTy).Contents (Elt F) → (⟨S800000, .i32⟩ : BufTy).Contents (Elt F)),
    binary main_v1 main_v19 main_v20 (cmpi .slt : (⟨S800000, .i32⟩ : BufTy).Contents (Elt F) → (⟨S800000, .i32⟩ : BufTy).Contents (Elt F) → (⟨S800000, .i1⟩ : BufTy).Contents (Elt F)),
    nullary main_c_2 (constantI S_ 32 50000#32),
    unary main_c_2 main_v21 (broadcastInDim S800000 ![] bcast_S_S800000 : (⟨S_, .i32⟩ : BufTy).Contents (Elt F) → (⟨S800000, .i32⟩ : BufTy).Contents (Elt F)),
    binary main_v1 main_v21 main_v22 (addi : (⟨S800000, .i32⟩ : BufTy).Contents (Elt F) → (⟨S800000, .i32⟩ : BufTy).Contents (Elt F) → (⟨S800000, .i32⟩ : BufTy).Contents (Elt F)),
    ternary main_v20 main_v22 main_v1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v23 main_v24 (broadcastInDim S800000x1 ![0] bcast_S800000_S800000x1_0 : (⟨S800000, .i32⟩ : BufTy).Contents (Elt F) → (⟨S800000x1, .i32⟩ : BufTy).Contents (Elt F)),
    binary main_v18 main_v24 main_v25 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    nullary main_cst_3 (constant S_ .f32 0x00000000#32),
    unary main_cst_3 main_v26 (broadcastInDim S50000x96 ![] bcast_S_S50000x96 : (⟨S_, .f32⟩ : BufTy).Contents (Elt F) → (⟨S50000x96, .f32⟩ : BufTy).Contents (Elt F)),
    unary main_v3 main_v27 (broadcastInDim S800000x1 ![0] bcast_S800000_S800000x1_0 : (⟨S800000, .i32⟩ : BufTy).Contents (Elt F) → (⟨S800000x1, .i32⟩ : BufTy).Contents (Elt F)),
    ternary main_v26 main_v27 main_v25 main_v28 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    binary main_v28 main_arg3 main_v29 ((fun l r => Host.dotGeneral dot_S50000x96_S96x96_S50000x96_1_0_0_1_n_n none l r) : (⟨S50000x96, .f32⟩ : BufTy).Contents (Elt F) → (⟨S96x96, .f32⟩ : BufTy).Contents (Elt F) → (⟨S50000x96, .f32⟩ : BufTy).Contents (Elt F)),
    unary main_arg4 main_v30 (broadcastInDim S1x96 ![1] bcast_S96_S1x96_1 : (⟨S96, .f32⟩ : BufTy).Contents (Elt F) → (⟨S1x96, .f32⟩ : BufTy).Contents (Elt F)),
    unary main_v30 main_v31 (broadcastInDim S50000x96 ![0, 1] bcast_S1x96_S50000x96_0_1 : (⟨S1x96, .f32⟩ : BufTy).Contents (Elt F) → (⟨S50000x96, .f32⟩ : BufTy).Contents (Elt F)),
    binary main_v29 main_v31 main_v32 (addf : (⟨S50000x96, .f32⟩ : BufTy).Contents (Elt F) → (⟨S50000x96, .f32⟩ : BufTy).Contents (Elt F) → (⟨S50000x96, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x96, .f32⟩) main_call1_v0) (broadcastInDim S50000x96 ![] bcast_S_S50000x96),
    TRef.binary (TRef.of (T := ⟨S50000x96, .f32⟩) main_v32) (TRef.of (T := ⟨S50000x96, .f32⟩) main_call1_v0) (TRef.of (T := ⟨S50000x96, .f32⟩) main_v33) maximumf ]

/-- The third layer, up to the biased logits: operations 44 to 60. -/
abbrev layer3 : List (HloOp τ sig (Elt F)) :=
  [ nullary main_c_4 (constantI S_ 32 0#32),
    unary main_c_4 main_v34 (broadcastInDim S800000 ![] bcast_S_S800000 : (⟨S_, .i32⟩ : BufTy).Contents (Elt F) → (⟨S800000, .i32⟩ : BufTy).Contents (Elt F)),
    binary main_v1 main_v34 main_v35 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v36 (broadcastInDim S800000 ![] bcast_S_S800000 : (⟨S_, .i32⟩ : BufTy).Contents (Elt F) → (⟨S800000, .i32⟩ : BufTy).Contents (Elt F)),
    binary main_v1 main_v36 main_v37 (addi : (⟨S800000, .i32⟩ : BufTy).Contents (Elt F) → (⟨S800000, .i32⟩ : BufTy).Contents (Elt F) → (⟨S800000, .i32⟩ : BufTy).Contents (Elt F)),
    ternary main_v35 main_v37 main_v1 main_v38 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v38 main_v39 (broadcastInDim S800000x1 ![0] bcast_S800000_S800000x1_0 : (⟨S800000, .i32⟩ : BufTy).Contents (Elt F) → (⟨S800000x1, .i32⟩ : BufTy).Contents (Elt F)),
    binary main_v33 main_v39 main_v40 ((fun x i => Host.gather gather_S50000x96_S800000x1_S800000x96_1_0_n_n_0_1_196 x i) : (⟨S50000x96, .f32⟩ : BufTy).Contents (Elt F) → (⟨S800000x1, .i32⟩ : BufTy).Contents (Elt F) → (⟨S800000x96, .f32⟩ : BufTy).Contents (Elt F)),
    nullary main_cst_6 (constant S_ .f32 0x00000000#32),
    unary main_cst_6 main_v41 (broadcastInDim S50000x96 ![] bcast_S_S50000x96 : (⟨S_, .f32⟩ : BufTy).Contents (Elt F) → (⟨S50000x96, .f32⟩ : BufTy).Contents (Elt F)),
    unary main_v3 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000x96_S800000x1_S800000x96_1_0_0_1 x i u) : (⟨S50000x96, .f32⟩ : BufTy).Contents (Elt F) → (⟨S800000x1, .i32⟩ : BufTy).Contents (Elt F) → (⟨S800000x96, .f32⟩ : BufTy).Contents (Elt F) → (⟨S50000x96, .f32⟩ : BufTy).Contents (Elt F)),
    binary main_v43 main_arg5 main_v44 ((fun l r => Host.dotGeneral dot_S50000x96_S96x40_S50000x40_1_0_0_1_n_n none l r) : (⟨S50000x96, .f32⟩ : BufTy).Contents (Elt F) → (⟨S96x40, .f32⟩ : BufTy).Contents (Elt F) → (⟨S50000x40, .f32⟩ : BufTy).Contents (Elt F)),
    unary main_arg6 main_v45 (broadcastInDim S1x40 ![1] bcast_S40_S1x40_1 : (⟨S40, .f32⟩ : BufTy).Contents (Elt F) → (⟨S1x40, .f32⟩ : BufTy).Contents (Elt F)),
    unary main_v45 main_v46 (broadcastInDim S50000x40 ![0, 1] bcast_S1x40_S50000x40_0_1 : (⟨S1x40, .f32⟩ : BufTy).Contents (Elt F) → (⟨S50000x40, .f32⟩ : BufTy).Contents (Elt F)),
    binary main_v44 main_v46 main_v47 (addf : (⟨S50000x40, .f32⟩ : BufTy).Contents (Elt F) → (⟨S50000x40, .f32⟩ : BufTy).Contents (Elt F) → (⟨S50000x40, .f32⟩ : BufTy).Contents (Elt F)) ]

/-- The row-wise log-softmax: operations 61 to 75. -/
abbrev lastStretch : List (HloOp τ sig (Elt F)) :=
  [ TRef.nullary (TRef.of (T := ⟨S_, .f32⟩) main_call2_cst) (constant S_ .f32 0xFF800000#32),
    TRef.binary (TRef.of (T := ⟨S50000x40, .f32⟩) main_v47) (TRef.of (T := ⟨S_, .f32⟩) main_call2_cst) (TRef.of (T := ⟨S50000, .f32⟩) main_call2_v0) (fun x v => Host.reduce FloatOps.maximumf x v reducesTo_S50000x40_S50000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S50000, .f32⟩) main_call2_v1) (broadcastInDim S50000 ![] bcast_S_S50000),
    TRef.binary (TRef.of (T := ⟨S50000, .f32⟩) main_call2_v1) (TRef.of (T := ⟨S50000, .f32⟩) main_call2_v0) (TRef.of (T := ⟨S50000, .f32⟩) main_call2_v2) maximumf,
    TRef.unary (TRef.of (T := ⟨S50000, .f32⟩) main_call2_v2) (TRef.of (T := ⟨S50000x1, .f32⟩) main_call2_v3) (broadcastInDim S50000x1 ![0] bcast_S50000_S50000x1_0),
    TRef.unary (TRef.of (T := ⟨S50000x1, .f32⟩) main_call2_v3) (TRef.of (T := ⟨S50000x40, .f32⟩) main_call2_v4) (broadcastInDim S50000x40 ![0, 1] bcast_S50000x1_S50000x40_0_1),
    TRef.binary (TRef.of (T := ⟨S50000x40, .f32⟩) main_v47) (TRef.of (T := ⟨S50000x40, .f32⟩) main_call2_v4) (TRef.of (T := ⟨S50000x40, .f32⟩) main_call2_v5) subf,
    TRef.unary (TRef.of (T := ⟨S50000x40, .f32⟩) main_call2_v5) (TRef.of (T := ⟨S50000x40, .f32⟩) main_call2_v6) Host.exp,
    TRef.nullary (TRef.of (T := ⟨S_, .f32⟩) main_call2_cst_1) (constant S_ .f32 0x00000000#32),
    TRef.binary (TRef.of (T := ⟨S50000x40, .f32⟩) main_call2_v6) (TRef.of (T := ⟨S_, .f32⟩) main_call2_cst_1) (TRef.of (T := ⟨S50000, .f32⟩) main_call2_v7) (fun x v => Host.reduceAdd x v reducesTo_S50000x40_S50000_d1 h_S_),
    TRef.unary (TRef.of (T := ⟨S50000, .f32⟩) main_call2_v7) (TRef.of (T := ⟨S50000x1, .f32⟩) main_call2_v8) (broadcastInDim S50000x1 ![0] bcast_S50000_S50000x1_0),
    TRef.unary (TRef.of (T := ⟨S50000x1, .f32⟩) main_call2_v8) (TRef.of (T := ⟨S50000x1, .f32⟩) main_call2_v9) Host.log,
    TRef.unary (TRef.of (T := ⟨S50000x1, .f32⟩) main_call2_v9) (TRef.of (T := ⟨S50000x40, .f32⟩) main_call2_v10) (broadcastInDim S50000x40 ![0, 1] bcast_S50000x1_S50000x40_0_1),
    TRef.binary (TRef.of (T := ⟨S50000x40, .f32⟩) main_call2_v5) (TRef.of (T := ⟨S50000x40, .f32⟩) main_call2_v10) (TRef.of (T := ⟨S50000x40, .f32⟩) main_v48) subf ]

set_option maxRecDepth 8192 in
theorem ops_eq : (ops : List (HloOp τ sig (Elt F))) = layer1 ++ (layer2 ++ (layer3 ++ lastStretch)) := rfl

section Stretches
variable (V : Valuation τ sig (Elt F))

/-! ### The first layer, from the arguments -/

theorem layer1_v18 : after layer1 V (Proc.devRef .tc main_v18)
    = val_main_v18 (F := F) (V (Proc.devRef .tc main_arg0)) (V (Proc.devRef .tc main_arg1)) (V (Proc.devRef .tc main_arg2)) (V (Proc.devRef .tc main_arg7)) := by
  after_results_simp <;> rfl
theorem layer1_v1 : after layer1 V (Proc.devRef .tc main_v1) = val_main_v1 (F := F) (V (Proc.devRef .tc main_arg7)) := by
  after_results_simp <;> rfl
theorem layer1_v3 : after layer1 V (Proc.devRef .tc main_v3) = val_main_v3 (F := F) (V (Proc.devRef .tc main_arg7)) := by
  after_results_simp <;> rfl
theorem layer1_arg3 : after layer1 V (Proc.devRef .tc main_arg3) = V (Proc.devRef .tc main_arg3) := by after_results_simp <;> rfl
theorem layer1_arg4 : after layer1 V (Proc.devRef .tc main_arg4) = V (Proc.devRef .tc main_arg4) := by after_results_simp <;> rfl
theorem layer1_arg5 : after layer1 V (Proc.devRef .tc main_arg5) = V (Proc.devRef .tc main_arg5) := by after_results_simp <;> rfl
theorem layer1_arg6 : after layer1 V (Proc.devRef .tc main_arg6) = V (Proc.devRef .tc main_arg6) := by after_results_simp <;> rfl

/-! ### The second layer, from the first layer's output, the index words and its weights -/

theorem layer2_v33 (x0 : (⟨S50000x128, .f32⟩ : BufTy).Contents (Elt F)) (x1 : (⟨S128x96, .f32⟩ : BufTy).Contents (Elt F)) (x2 : (⟨S96, .f32⟩ : BufTy).Contents (Elt F))
    (x3 : (⟨S96x96, .f32⟩ : BufTy).Contents (Elt F)) (x4 : (⟨S96, .f32⟩ : BufTy).Contents (Elt F)) (x7 : (⟨S2x800000, .i32⟩ : BufTy).Contents (Elt F))
    (h18 : V (Proc.devRef .tc main_v18) = val_main_v18 (F := F) x0 x1 x2 x7)
    (h1 : V (Proc.devRef .tc main_v1) = val_main_v1 (F := F) x7) (h3 : V (Proc.devRef .tc main_v3) = val_main_v3 (F := F) x7)
    (ha3 : V (Proc.devRef .tc main_arg3) = x3) (ha4 : V (Proc.devRef .tc main_arg4) = x4) :
    after layer2 V (Proc.devRef .tc main_v33) = val_main_v33 (F := F) x0 x1 x2 x3 x4 x7 := by
  after_results_simp
  rw [h18, h1, h3, ha3, ha4]
  rfl
theorem layer2_v1 : after layer2 V (Proc.devRef .tc main_v1) = V (Proc.devRef .tc main_v1) := by after_results_simp <;> rfl
theorem layer2_v3 : after layer2 V (Proc.devRef .tc main_v3) = V (Proc.devRef .tc main_v3) := by after_results_simp <;> rfl
theorem layer2_arg5 : after layer2 V (Proc.devRef .tc main_arg5) = V (Proc.devRef .tc main_arg5) := by after_results_simp <;> rfl
theorem layer2_arg6 : after layer2 V (Proc.devRef .tc main_arg6) = V (Proc.devRef .tc main_arg6) := by after_results_simp <;> rfl

/-! ### The third layer -/

theorem layer3_v47 (x0 : (⟨S50000x128, .f32⟩ : BufTy).Contents (Elt F)) (x1 : (⟨S128x96, .f32⟩ : BufTy).Contents (Elt F)) (x2 : (⟨S96, .f32⟩ : BufTy).Contents (Elt F))
    (x3 : (⟨S96x96, .f32⟩ : BufTy).Contents (Elt F)) (x4 : (⟨S96, .f32⟩ : BufTy).Contents (Elt F)) (x5 : (⟨S96x40, .f32⟩ : BufTy).Contents (Elt F)) (x6 : (⟨S40, .f32⟩ : BufTy).Contents (Elt F)) (x7 : (⟨S2x800000, .i32⟩ : BufTy).Contents (Elt F))
    (h33 : V (Proc.devRef .tc main_v33) = val_main_v33 (F := F) x0 x1 x2 x3 x4 x7)
    (h1 : V (Proc.devRef .tc main_v1) = val_main_v1 (F := F) x7) (h3 : V (Proc.devRef .tc main_v3) = val_main_v3 (F := F) x7)
    (ha5 : V (Proc.devRef .tc main_arg5) = x5) (ha6 : V (Proc.devRef .tc main_arg6) = x6) :
    after layer3 V (Proc.devRef .tc main_v47) = val_main_v47 (F := F) x0 x1 x2 x3 x4 x5 x6 x7 := by
  after_results_simp
  rw [h33, h1, h3, ha5, ha6]
  rfl

/-! ### The log-softmax of the logits -/

/-- A value carried to a buffer's type and back is the value. -/
theorem ofBuf_toBuf {T : BufTy} (x : TRef sig T) (v : T.Contents (Elt F)) : x.ofBuf (x.toBuf v) = v := by
  obtain ⟨r, h, h2, h3⟩ := x
  subst h
  rfl

/-- The host's row-wise log-softmax of a `[50000, 40]` matrix, as the last fifteen operations spell it: the row
    maximum from `-∞` (once more against `-∞`), subtracted; the exponentials summed along the row; the logarithm of
    the sum subtracted. -/
def hostLogSoftmax (y : (⟨S50000x40, .f32⟩ : BufTy).Contents (Elt F)) : (⟨S50000x40, .f32⟩ : BufTy).Contents (Elt F) :=
  subf
    (subf y
      (broadcastInDim S50000x40 ![0, 1] bcast_S50000x1_S50000x40_0_1
        (broadcastInDim S50000x1 ![0] bcast_S50000_S50000x1_0
          (maximumf (broadcastInDim S50000 ![] bcast_S_S50000 (constant S_ .f32 0xFF800000#32))
            (Host.reduce FloatOps.maximumf y (constant S_ .f32 0xFF800000#32) reducesTo_S50000x40_S50000_d1 h_S_)))))
    (broadcastInDim S50000x40 ![0, 1] bcast_S50000x1_S50000x40_0_1
      (Host.log
        (broadcastInDim S50000x1 ![0] bcast_S50000_S50000x1_0
          (Host.reduceAdd
            (Host.exp
              (subf y
                (broadcastInDim S50000x40 ![0, 1] bcast_S50000x1_S50000x40_0_1
                  (broadcastInDim S50000x1 ![0] bcast_S50000_S50000x1_0
                    (maximumf (broadcastInDim S50000 ![] bcast_S_S50000 (constant S_ .f32 0xFF800000#32))
                      (Host.reduce FloatOps.maximumf y (constant S_ .f32 0xFF800000#32) reducesTo_S50000x40_S50000_d1 h_S_))))))
            (constant S_ .f32 0x00000000#32) reducesTo_S50000x40_S50000_d1 h_S_))))

set_option maxHeartbeats 400000 in
/-- The last stage of the reference, opened: the host's log-softmax of the logits' stage. -/
theorem hostLogSoftmax_eq (x0 : (⟨S50000x128, .f32⟩ : BufTy).Contents (Elt F)) (x1 : (⟨S128x96, .f32⟩ : BufTy).Contents (Elt F)) (x2 : (⟨S96, .f32⟩ : BufTy).Contents (Elt F))
    (x3 : (⟨S96x96, .f32⟩ : BufTy).Contents (Elt F)) (x4 : (⟨S96, .f32⟩ : BufTy).Contents (Elt F)) (x5 : (⟨S96x40, .f32⟩ : BufTy).Contents (Elt F)) (x6 : (⟨S40, .f32⟩ : BufTy).Contents (Elt F)) (x7 : (⟨S2x800000, .i32⟩ : BufTy).Contents (Elt F)) :
    hostLogSoftmax (val_main_v47 (F := F) x0 x1 x2 x3 x4 x5 x6 x7) = val_main_v48 (F := F) x0 x1 x2 x3 x4 x5 x6 x7 := by
  unfold hostLogSoftmax val_main_v48 val_main_call2_v10 val_main_call2_v9 val_main_call2_v8 val_main_call2_v7
    val_main_call2_cst_1 val_main_call2_v6 val_main_call2_v5 val_main_call2_v4 val_main_call2_v3 val_main_call2_v2
    val_main_call2_v1 val_main_call2_cst_0 val_main_call2_v0 val_main_call2_cst
  rfl

/-- Reading the logits' buffer at its value type changes nothing. -/
theorem ofBuf_v47 (y : (⟨S50000x40, .f32⟩ : BufTy).Contents (Elt F)) : (TRef.of (T := ⟨S50000x40, .f32⟩) main_v47).ofBuf (Val := Elt F) y = y := rfl
/-- Nor does writing the result at its buffer's type. -/
theorem toBuf_v48 (y : (⟨S50000x40, .f32⟩ : BufTy).Contents (Elt F)) : (TRef.of (T := ⟨S50000x40, .f32⟩) main_v48).toBuf (Val := Elt F) y = y := rfl

set_option maxHeartbeats 400000 in
theorem lastStretch_v48 (x0 : (⟨S50000x128, .f32⟩ : BufTy).Contents (Elt F)) (x1 : (⟨S128x96, .f32⟩ : BufTy).Contents (Elt F)) (x2 : (⟨S96, .f32⟩ : BufTy).Contents (Elt F))
    (x3 : (⟨S96x96, .f32⟩ : BufTy).Contents (Elt F)) (x4 : (⟨S96, .f32⟩ : BufTy).Contents (Elt F)) (x5 : (⟨S96x40, .f32⟩ : BufTy).Contents (Elt F)) (x6 : (⟨S40, .f32⟩ : BufTy).Contents (Elt F)) (x7 : (⟨S2x800000, .i32⟩ : BufTy).Contents (Elt F))
    (h47 : V (Proc.devRef .tc main_v47) = val_main_v47 (F := F) x0 x1 x2 x3 x4 x5 x6 x7) :
    after lastStretch V (Proc.devRef .tc main_v48) = val_main_v48 (F := F) x0 x1 x2 x3 x4 x5 x6 x7 := by
  after_results_simp
  simp only [ofBuf_toBuf]
  rw [h47, ofBuf_v47, ← hostLogSoftmax_eq]
  exact toBuf_v48 _

end Stretches

/-- THE RESULT BUFFER after all 76 operations: the last stage of the arguments as the valuation has them. -/
theorem value (V : Valuation τ sig (Elt F)) :
    after ops V (Proc.devRef .tc main_v48)
      = val_main_v48 (F := F) (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) := by
  rw [ops_eq, after_append, after_append, after_append]
  refine lastStretch_v48 _ _ _ _ _ _ _ _ _ (layer3_v47 _ _ _ _ _ _ _ _ _
    (layer2_v33 _ _ _ _ _ _ _ (layer1_v18 V) (layer1_v1 V) (layer1_v3 V) (layer1_arg3 V) (layer1_arg4 V))
    ((layer2_v1 _).trans (layer1_v1 V)) ((layer2_v3 _).trans (layer1_v3 V))
    ((layer2_arg5 _).trans (layer1_arg5 V)) ((layer2_arg6 _).trans (layer1_arg6 V)))

set_option maxRecDepth 8192 in
/-- On every device, from any memory with zero counters: every weakly fair execution of the reference terminates with
    the result at the last stage of the launch arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48)
        = val_main_v48 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v48).trans (value (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.HandRun

end
-- ==== Proof.RefValue.lean ====
/-
  The reference program's result is the aggregate-first graph convolution.

  The program is read one stage at a time.  In each of the three layers a row gather at the source words followed by an
  accumulating row scatter into zeros at the destination words is the aggregation; the product with the layer's
  weights is the matrix product, rows against columns; the bias is added along the rows; the rectifier is the
  maximum with zero.  The last layer ends in the row-wise log-softmax: the row maximum is a fold of `max` from
  `-∞` along the row, the maximum of `-∞` and that fold is the fold again, and the sum of the exponentials
  starts from zero.
-/
import proofs.«130317_j78408922955888_2_alg».proof.Proof.RefReadP
import proofs.«130317_j78408922955888_2_alg».proof.Proof.GcnSpec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.ReadP Idealize.ShloMosaic Idealize.ShloMosaic.ValueIdx
  Idealize.ShloMosaic.RowGatherScatter

/-! ## Words -/

/-- The word `0xFF800000` is `-∞`. -/
theorem ofBits_neg_inf : Ideal.ofBits .f32 0xFF800000#32 = (⊥ : EReal) := by simp [Ideal.ofBits, Ideal.ieee]

/-! ## The index words of the three layers are the same words -/

theorem src2_eq (x7 : (⟨S2x800000, .i32⟩ : BufTy).Contents (Elt Ideal)) : val_main_v24 (F := Ideal) x7 = val_main_v9 (F := Ideal) x7 := rfl
theorem src3_eq (x7 : (⟨S2x800000, .i32⟩ : BufTy).Contents (Elt Ideal)) : val_main_v39 (F := Ideal) x7 = val_main_v9 (F := Ideal) x7 := rfl
theorem dst2_eq (x7 : (⟨S2x800000, .i32⟩ : BufTy).Contents (Elt Ideal)) : val_main_v27 (F := Ideal) x7 = val_main_v12 (F := Ideal) x7 := rfl
theorem dst3_eq (x7 : (⟨S2x800000, .i32⟩ : BufTy).Contents (Elt Ideal)) : val_main_v42 (F := Ideal) x7 = val_main_v12 (F := Ideal) x7 := rfl

/-! ## Gather then scatter into zeros is the aggregation, at the two widths the program uses -/

theorem gatherScatter128 (src dst : IVec S800000x1 32) (f z : FVec Ideal S50000x128 .f32) (hz : ∀ i, z i = 0) :
    Host.scatterAdd (F := Ideal) scatter_S50000x128_S800000x1_S800000x128_1_0_0_1 z dst
        (Host.gather gather_S50000x128_S800000x1_S800000x128_1_0_n_n_0_1_1128 f src)
      = Gcn.aggr (N := 50000) (E := 800000) (by decide : 0 < 50000) src dst f :=
  Gcn.gatherScatter_eq_aggr (N := 50000) (E := 800000) (D := 128) (by decide : 0 < 50000)
    gather_S50000x128_S800000x1_S800000x128_1_0_n_n_0_1_1128_wf
    scatter_S50000x128_S800000x1_S800000x128_1_0_0_1_wf src dst f z hz

theorem gatherScatter96 (src dst : IVec S800000x1 32) (f z : FVec Ideal S50000x96 .f32) (hz : ∀ i, z i = 0) :
    Host.scatterAdd (F := Ideal) scatter_S50000x96_S800000x1_S800000x96_1_0_0_1 z dst
        (Host.gather gather_S50000x96_S800000x1_S800000x96_1_0_n_n_0_1_196 f src)
      = Gcn.aggr (N := 50000) (E := 800000) (by decide : 0 < 50000) src dst f :=
  Gcn.gatherScatter_eq_aggr (N := 50000) (E := 800000) (D := 96) (by decide : 0 < 50000)
    gather_S50000x96_S800000x1_S800000x96_1_0_n_n_0_1_196_wf
    scatter_S50000x96_S800000x1_S800000x96_1_0_0_1_wf src dst f z hz

/-- The three all-zero operands the scatters accumulate into. -/
theorem zeros1 (i : S50000x128.Idx) : val_main_v11 (F := Ideal) i = 0 := by
  rw [val_main_v11_apply, val_main_cst_apply]; exact Ideal.ofBits_zero_f32
theorem zeros2 (i : S50000x96.Idx) : val_main_v26 (F := Ideal) i = 0 := by
  rw [val_main_v26_apply, val_main_cst_3_apply]; exact Ideal.ofBits_zero_f32
theorem zeros3 (i : S50000x96.Idx) : val_main_v41 (F := Ideal) i = 0 := by
  rw [val_main_v41_apply, val_main_cst_6_apply]; exact Ideal.ofBits_zero_f32

/-! ## Layer 1 -/

theorem v13_eq (x0 : (⟨S50000x128, .f32⟩ : BufTy).Contents (Elt Ideal)) (x7 : (⟨S2x800000, .i32⟩ : BufTy).Contents (Elt Ideal)) :
    val_main_v13 (F := Ideal) x0 x7 = Gcn.aggr (N := 50000) (E := 800000) (by decide : 0 < 50000) (val_main_v9 (F := Ideal) x7) (val_main_v12 (F := Ideal) x7) x0 := by
  unfold val_main_v13 val_main_v10
  exact gatherScatter128 _ _ x0 _ zeros1

theorem v14_eq (x0 : (⟨S50000x128, .f32⟩ : BufTy).Contents (Elt Ideal)) (x1 : (⟨S128x96, .f32⟩ : BufTy).Contents (Elt Ideal)) (x7 : (⟨S2x800000, .i32⟩ : BufTy).Contents (Elt Ideal)) :
    val_main_v14 (F := Ideal) x0 x1 x7 = Gcn.mm (val_main_v13 (F := Ideal) x0 x7) x1 := by
  funext i
  rw [val_main_v14_apply]
  refine Finset.sum_congr rfl fun k _ => ?_
  have el : lidx_main_v14 i k = ix2 (n0 := 50000) (n1 := 128) (i 0) k := funext fun a => Fin.ext (by match a with | ⟨0, _⟩ => rfl | ⟨1, _⟩ => rfl)
  have er : ridx_main_v14 i k = ix2 (n0 := 128) (n1 := 96) k (i 1) := funext fun a => Fin.ext (by match a with | ⟨0, _⟩ => rfl | ⟨1, _⟩ => rfl)
  rw [el, er]

theorem v18_eq (x0 : (⟨S50000x128, .f32⟩ : BufTy).Contents (Elt Ideal)) (x1 : (⟨S128x96, .f32⟩ : BufTy).Contents (Elt Ideal)) (x2 : (⟨S96, .f32⟩ : BufTy).Contents (Elt Ideal)) (x7 : (⟨S2x800000, .i32⟩ : BufTy).Contents (Elt Ideal)) :
    val_main_v18 (F := Ideal) x0 x1 x2 x7 = Gcn.biasRelu (val_main_v14 (F := Ideal) x0 x1 x7) x2 := by
  funext i
  rw [val_main_v18_apply, val_main_v17_apply, val_main_v16_apply, val_main_v15_apply, val_main_call0_v0_apply,
    val_main_call0_cst_apply]
  have e : idx_main_v15 (idx_main_v16 i) = ix1 (i 1) := funext fun a => Fin.ext (by match a with | ⟨0, _⟩ => rfl)
  rw [e]
  show max (_ + _) (Ideal.ofBits .f32 0x00000000#32) = _
  rw [Ideal.ofBits_zero_f32]
  rfl

/-! ## Layer 2 -/

theorem v28_eq (x0 : (⟨S50000x128, .f32⟩ : BufTy).Contents (Elt Ideal)) (x1 : (⟨S128x96, .f32⟩ : BufTy).Contents (Elt Ideal)) (x2 : (⟨S96, .f32⟩ : BufTy).Contents (Elt Ideal)) (x7 : (⟨S2x800000, .i32⟩ : BufTy).Contents (Elt Ideal)) :
    val_main_v28 (F := Ideal) x0 x1 x2 x7 = Gcn.aggr (N := 50000) (E := 800000) (by decide : 0 < 50000) (val_main_v9 (F := Ideal) x7) (val_main_v12 (F := Ideal) x7) (val_main_v18 (F := Ideal) x0 x1 x2 x7) := by
  unfold val_main_v28 val_main_v25
  rw [src2_eq, dst2_eq]
  exact gatherScatter96 _ _ _ _ zeros2

theorem v29_eq (x0 : (⟨S50000x128, .f32⟩ : BufTy).Contents (Elt Ideal)) (x1 : (⟨S128x96, .f32⟩ : BufTy).Contents (Elt Ideal)) (x2 : (⟨S96, .f32⟩ : BufTy).Contents (Elt Ideal)) (x3 : (⟨S96x96, .f32⟩ : BufTy).Contents (Elt Ideal)) (x7 : (⟨S2x800000, .i32⟩ : BufTy).Contents (Elt Ideal)) :
    val_main_v29 (F := Ideal) x0 x1 x2 x3 x7 = Gcn.mm (val_main_v28 (F := Ideal) x0 x1 x2 x7) x3 := by
  funext i
  rw [val_main_v29_apply]
  refine Finset.sum_congr rfl fun k _ => ?_
  have el : lidx_main_v29 i k = ix2 (n0 := 50000) (n1 := 96) (i 0) k := funext fun a => Fin.ext (by match a with | ⟨0, _⟩ => rfl | ⟨1, _⟩ => rfl)
  have er : ridx_main_v29 i k = ix2 (n0 := 96) (n1 := 96) k (i 1) := funext fun a => Fin.ext (by match a with | ⟨0, _⟩ => rfl | ⟨1, _⟩ => rfl)
  rw [el, er]

theorem v33_eq (x0 : (⟨S50000x128, .f32⟩ : BufTy).Contents (Elt Ideal)) (x1 : (⟨S128x96, .f32⟩ : BufTy).Contents (Elt Ideal)) (x2 : (⟨S96, .f32⟩ : BufTy).Contents (Elt Ideal)) (x3 : (⟨S96x96, .f32⟩ : BufTy).Contents (Elt Ideal)) (x4 : (⟨S96, .f32⟩ : BufTy).Contents (Elt Ideal)) (x7 : (⟨S2x800000, .i32⟩ : BufTy).Contents (Elt Ideal)) :
    val_main_v33 (F := Ideal) x0 x1 x2 x3 x4 x7 = Gcn.biasRelu (val_main_v29 (F := Ideal) x0 x1 x2 x3 x7) x4 := by
  funext i
  rw [val_main_v33_apply, val_main_v32_apply, val_main_v31_apply, val_main_v30_apply, val_main_call1_v0_apply,
    val_main_call1_cst_apply]
  have e : idx_main_v30 (idx_main_v31 i) = ix1 (i 1) := funext fun a => Fin.ext (by match a with | ⟨0, _⟩ => rfl)
  rw [e]
  show max (_ + _) (Ideal.ofBits .f32 0x00000000#32) = _
  rw [Ideal.ofBits_zero_f32]
  rfl

/-! ## Layer 3 -/

theorem v43_eq (x0 : (⟨S50000x128, .f32⟩ : BufTy).Contents (Elt Ideal)) (x1 : (⟨S128x96, .f32⟩ : BufTy).Contents (Elt Ideal)) (x2 : (⟨S96, .f32⟩ : BufTy).Contents (Elt Ideal)) (x3 : (⟨S96x96, .f32⟩ : BufTy).Contents (Elt Ideal)) (x4 : (⟨S96, .f32⟩ : BufTy).Contents (Elt Ideal)) (x7 : (⟨S2x800000, .i32⟩ : BufTy).Contents (Elt Ideal)) :
    val_main_v43 (F := Ideal) x0 x1 x2 x3 x4 x7 = Gcn.aggr (N := 50000) (E := 800000) (by decide : 0 < 50000) (val_main_v9 (F := Ideal) x7) (val_main_v12 (F := Ideal) x7) (val_main_v33 (F := Ideal) x0 x1 x2 x3 x4 x7) := by
  unfold val_main_v43 val_main_v40
  rw [src3_eq, dst3_eq]
  exact gatherScatter96 _ _ _ _ zeros3

theorem v44_eq (x0 : (⟨S50000x128, .f32⟩ : BufTy).Contents (Elt Ideal)) (x1 : (⟨S128x96, .f32⟩ : BufTy).Contents (Elt Ideal)) (x2 : (⟨S96, .f32⟩ : BufTy).Contents (Elt Ideal)) (x3 : (⟨S96x96, .f32⟩ : BufTy).Contents (Elt Ideal)) (x4 : (⟨S96, .f32⟩ : BufTy).Contents (Elt Ideal)) (x5 : (⟨S96x40, .f32⟩ : BufTy).Contents (Elt Ideal)) (x7 : (⟨S2x800000, .i32⟩ : BufTy).Contents (Elt Ideal)) :
    val_main_v44 (F := Ideal) x0 x1 x2 x3 x4 x5 x7 = Gcn.mm (val_main_v43 (F := Ideal) x0 x1 x2 x3 x4 x7) x5 := by
  funext i
  rw [val_main_v44_apply]
  refine Finset.sum_congr rfl fun k _ => ?_
  have el : lidx_main_v44 i k = ix2 (n0 := 50000) (n1 := 96) (i 0) k := funext fun a => Fin.ext (by match a with | ⟨0, _⟩ => rfl | ⟨1, _⟩ => rfl)
  have er : ridx_main_v44 i k = ix2 (n0 := 96) (n1 := 40) k (i 1) := funext fun a => Fin.ext (by match a with | ⟨0, _⟩ => rfl | ⟨1, _⟩ => rfl)
  rw [el, er]

theorem v47_eq (x0 : (⟨S50000x128, .f32⟩ : BufTy).Contents (Elt Ideal)) (x1 : (⟨S128x96, .f32⟩ : BufTy).Contents (Elt Ideal)) (x2 : (⟨S96, .f32⟩ : BufTy).Contents (Elt Ideal)) (x3 : (⟨S96x96, .f32⟩ : BufTy).Contents (Elt Ideal)) (x4 : (⟨S96, .f32⟩ : BufTy).Contents (Elt Ideal)) (x5 : (⟨S96x40, .f32⟩ : BufTy).Contents (Elt Ideal)) (x6 : (⟨S40, .f32⟩ : BufTy).Contents (Elt Ideal)) (x7 : (⟨S2x800000, .i32⟩ : BufTy).Contents (Elt Ideal)) :
    val_main_v47 (F := Ideal) x0 x1 x2 x3 x4 x5 x6 x7 = Gcn.addBias (val_main_v44 (F := Ideal) x0 x1 x2 x3 x4 x5 x7) x6 := by
  funext i
  rw [val_main_v47_apply, val_main_v46_apply, val_main_v45_apply]
  have e : idx_main_v45 (idx_main_v46 i) = ix1 (i 1) := funext fun a => Fin.ext (by match a with | ⟨0, _⟩ => rfl)
  rw [e]
  rfl

/-! ## The row-wise log-softmax -/

/-- The index of a row's entry `k`, as the reduction along the row names it. -/
theorem lift_row (h : S50000x40.Reduces [1] S50000) (r : Fin 50000) (k : Fin (S50000x40.size 1)) :
    h.lift (ix1 r) k = ix2 r (⟨k.val, k.isLt⟩ : Fin 40) := by
  funext c
  apply Fin.ext
  match c with
  | ⟨0, _⟩ => rfl
  | ⟨1, _⟩ => rfl

/-- Along the rows of a matrix with forty columns, the reduction with a maximum body from an initial value `-∞`
    is the row's maximum. -/
theorem rowMax_of_reduce (L : FVec Ideal S50000x40 .f32) (init : FVec Ideal S_ .f32)
    (h' : S50000x40.ReducesTo [1] S50000) (hu : 0 < S_.numel) (hinit : init (Shape.Idx.first hu) = (⊥ : EReal))
    (r : Fin 50000) :
    Host.reduce (FloatOps.maximumf (F := Ideal) (φ := .f32)) L init h' hu (ix1 r) = Gcn.rowMax L r := by
  have hR : S50000x40.Reduces [1] S50000 := by decide
  rw [Host.reduce_eq_fold_single (FloatOps.maximumf (F := Ideal) (φ := .f32)) L init h' hR hu]
  have hf : (L ∘ hR.lift (ix1 r)) = fun k : Fin 40 => L (ix2 r k) := funext fun k => congrArg L (lift_row hR r k)
  rw [hinit, hf]
  rfl

/-- The reduction with a maximum body along the rows, from `-∞`, is the row's maximum. -/
theorem call2_v0_row (x0 : (⟨S50000x128, .f32⟩ : BufTy).Contents (Elt Ideal)) (x1 : (⟨S128x96, .f32⟩ : BufTy).Contents (Elt Ideal)) (x2 : (⟨S96, .f32⟩ : BufTy).Contents (Elt Ideal)) (x3 : (⟨S96x96, .f32⟩ : BufTy).Contents (Elt Ideal)) (x4 : (⟨S96, .f32⟩ : BufTy).Contents (Elt Ideal)) (x5 : (⟨S96x40, .f32⟩ : BufTy).Contents (Elt Ideal)) (x6 : (⟨S40, .f32⟩ : BufTy).Contents (Elt Ideal)) (x7 : (⟨S2x800000, .i32⟩ : BufTy).Contents (Elt Ideal)) (r : Fin 50000) :
    val_main_call2_v0 (F := Ideal) x0 x1 x2 x3 x4 x5 x6 x7 (ix1 r) = Gcn.rowMax (val_main_v47 (F := Ideal) x0 x1 x2 x3 x4 x5 x6 x7) r :=
  rowMax_of_reduce (val_main_v47 (F := Ideal) x0 x1 x2 x3 x4 x5 x6 x7) (val_main_call2_cst (F := Ideal)) reducesTo_S50000x40_S50000_d1 h_S_
    (by rw [val_main_call2_cst_apply]; exact ofBits_neg_inf) r

/-- The maximum of `-∞` and the row's maximum is the row's maximum. -/
theorem call2_v2_row (x0 : (⟨S50000x128, .f32⟩ : BufTy).Contents (Elt Ideal)) (x1 : (⟨S128x96, .f32⟩ : BufTy).Contents (Elt Ideal)) (x2 : (⟨S96, .f32⟩ : BufTy).Contents (Elt Ideal)) (x3 : (⟨S96x96, .f32⟩ : BufTy).Contents (Elt Ideal)) (x4 : (⟨S96, .f32⟩ : BufTy).Contents (Elt Ideal)) (x5 : (⟨S96x40, .f32⟩ : BufTy).Contents (Elt Ideal)) (x6 : (⟨S40, .f32⟩ : BufTy).Contents (Elt Ideal)) (x7 : (⟨S2x800000, .i32⟩ : BufTy).Contents (Elt Ideal)) (r : Fin 50000) :
    val_main_call2_v2 (F := Ideal) x0 x1 x2 x3 x4 x5 x6 x7 (ix1 r) = Gcn.rowMax (val_main_v47 (F := Ideal) x0 x1 x2 x3 x4 x5 x6 x7) r := by
  rw [val_main_call2_v2_apply, val_main_call2_v1_apply, val_main_call2_cst_0_apply, call2_v0_row]
  show max (Ideal.ofBits .f32 0xFF800000#32) _ = _
  rw [ofBits_neg_inf]
  exact max_eq_right bot_le

/-- The shifted entry: the entry minus its row's maximum. -/
theorem call2_v5_at (x0 : (⟨S50000x128, .f32⟩ : BufTy).Contents (Elt Ideal)) (x1 : (⟨S128x96, .f32⟩ : BufTy).Contents (Elt Ideal)) (x2 : (⟨S96, .f32⟩ : BufTy).Contents (Elt Ideal)) (x3 : (⟨S96x96, .f32⟩ : BufTy).Contents (Elt Ideal)) (x4 : (⟨S96, .f32⟩ : BufTy).Contents (Elt Ideal)) (x5 : (⟨S96x40, .f32⟩ : BufTy).Contents (Elt Ideal)) (x6 : (⟨S40, .f32⟩ : BufTy).Contents (Elt Ideal)) (x7 : (⟨S2x800000, .i32⟩ : BufTy).Contents (Elt Ideal)) (r : Fin 50000) (c : Fin 40) :
    val_main_call2_v5 (F := Ideal) x0 x1 x2 x3 x4 x5 x6 x7 (ix2 r c)
      = val_main_v47 (F := Ideal) x0 x1 x2 x3 x4 x5 x6 x7 (ix2 r c) - Gcn.rowMax (val_main_v47 (F := Ideal) x0 x1 x2 x3 x4 x5 x6 x7) r := by
  rw [val_main_call2_v5_apply, val_main_call2_v4_apply, val_main_call2_v3_apply]
  have e : idx_main_call2_v3 (idx_main_call2_v4 (ix2 r c)) = ix1 r := funext fun a => Fin.ext (by match a with | ⟨0, _⟩ => rfl)
  rw [e, call2_v2_row]
  rfl

/-- The row's sum of exponentials of the shifted entries. -/
theorem call2_v7_row (x0 : (⟨S50000x128, .f32⟩ : BufTy).Contents (Elt Ideal)) (x1 : (⟨S128x96, .f32⟩ : BufTy).Contents (Elt Ideal)) (x2 : (⟨S96, .f32⟩ : BufTy).Contents (Elt Ideal)) (x3 : (⟨S96x96, .f32⟩ : BufTy).Contents (Elt Ideal)) (x4 : (⟨S96, .f32⟩ : BufTy).Contents (Elt Ideal)) (x5 : (⟨S96x40, .f32⟩ : BufTy).Contents (Elt Ideal)) (x6 : (⟨S40, .f32⟩ : BufTy).Contents (Elt Ideal)) (x7 : (⟨S2x800000, .i32⟩ : BufTy).Contents (Elt Ideal)) (r : Fin 50000) :
    val_main_call2_v7 (F := Ideal) x0 x1 x2 x3 x4 x5 x6 x7 (ix1 r)
      = ∑ k : Fin 40, Ideal.exp (val_main_v47 (F := Ideal) x0 x1 x2 x3 x4 x5 x6 x7 (ix2 r k) - Gcn.rowMax (val_main_v47 (F := Ideal) x0 x1 x2 x3 x4 x5 x6 x7) r) := by
  rw [val_main_call2_v7_apply, val_main_call2_cst_1_apply]
  show Ideal.ofBits .f32 0x00000000#32 + _ = _
  rw [Ideal.ofBits_zero_f32, zero_add]
  refine Finset.sum_congr rfl fun k _ => ?_
  have e : idx_main_call2_v7 (ix1 r) k = ix2 r k := funext fun a => Fin.ext (by match a with | ⟨0, _⟩ => rfl | ⟨1, _⟩ => rfl)
  rw [val_main_call2_v6_apply, e, call2_v5_at, Ideal.hostUnary_exp_def]

/-- The log-softmax at an entry: the shifted entry minus the logarithm of the row's sum of exponentials of the
    shifted entries. -/
theorem logSoftmax_at (y : Gcn.Mat 50000 40) (r : Fin 50000) (c : Fin 40) :
    Gcn.logSoftmax y (ix2 r c)
      = (y (ix2 r c) - Gcn.rowMax y r) - Ideal.log (∑ k : Fin 40, Ideal.exp (y (ix2 r k) - Gcn.rowMax y r)) := rfl

theorem v48_eq (x0 : (⟨S50000x128, .f32⟩ : BufTy).Contents (Elt Ideal)) (x1 : (⟨S128x96, .f32⟩ : BufTy).Contents (Elt Ideal)) (x2 : (⟨S96, .f32⟩ : BufTy).Contents (Elt Ideal)) (x3 : (⟨S96x96, .f32⟩ : BufTy).Contents (Elt Ideal)) (x4 : (⟨S96, .f32⟩ : BufTy).Contents (Elt Ideal)) (x5 : (⟨S96x40, .f32⟩ : BufTy).Contents (Elt Ideal)) (x6 : (⟨S40, .f32⟩ : BufTy).Contents (Elt Ideal)) (x7 : (⟨S2x800000, .i32⟩ : BufTy).Contents (Elt Ideal)) :
    val_main_v48 (F := Ideal) x0 x1 x2 x3 x4 x5 x6 x7 = Gcn.logSoftmax (val_main_v47 (F := Ideal) x0 x1 x2 x3 x4 x5 x6 x7) := by
  funext i
  obtain ⟨r, c, rfl⟩ : ∃ (r : Fin 50000) (c : Fin 40), i = ix2 r c := ⟨i 0, i 1, eq_ix2 i⟩
  rw [val_main_v48_apply, call2_v5_at, val_main_call2_v10_apply, val_main_call2_v9_apply, val_main_call2_v8_apply]
  have e : idx_main_call2_v8 (idx_main_call2_v10 (ix2 r c)) = ix1 r := funext fun a => Fin.ext (by match a with | ⟨0, _⟩ => rfl)
  rw [e, call2_v7_row, logSoftmax_at, Ideal.subf_def, Ideal.hostUnary_log_def]

/-! ## The whole program -/

/-- The reference program's result is the aggregate-first convolution of its arguments, over the source and
    destination words the first layer reads. -/
theorem result_eq (x0 : (⟨S50000x128, .f32⟩ : BufTy).Contents (Elt Ideal)) (x1 : (⟨S128x96, .f32⟩ : BufTy).Contents (Elt Ideal)) (x2 : (⟨S96, .f32⟩ : BufTy).Contents (Elt Ideal)) (x3 : (⟨S96x96, .f32⟩ : BufTy).Contents (Elt Ideal)) (x4 : (⟨S96, .f32⟩ : BufTy).Contents (Elt Ideal)) (x5 : (⟨S96x40, .f32⟩ : BufTy).Contents (Elt Ideal)) (x6 : (⟨S40, .f32⟩ : BufTy).Contents (Elt Ideal)) (x7 : (⟨S2x800000, .i32⟩ : BufTy).Contents (Elt Ideal)) :
    ReadP.val_main_v48 (F := Ideal) x0 x1 x2 x3 x4 x5 x6 x7
      = Gcn.aggregateFirst (N := 50000) (E := 800000) (by decide) (ReadP.val_main_v9 (F := Ideal) x7)
          (ReadP.val_main_v12 (F := Ideal) x7) x0 x1 x2 x3 x4 x5 x6 := by
  rw [v48_eq, v47_eq, v44_eq, v43_eq, v33_eq, v29_eq, v28_eq, v18_eq, v14_eq, v13_eq]
  rfl

end Cert.ReferenceIdeal.RefValue

end
-- ==== Proof.FiniteInputs.lean ====
/-
  From the precondition to real entries.

  The precondition states, for each of the seven float arrays, that every entry's absolute value is below `+∞`, and
  takes the conjunction of the seven statements.  An extended real whose absolute value `max x (-x)` is below `+∞` is
  neither infinity, so it is a real number.
-/
import proofs.«130317_j78408922955888_2_alg».proof.Pre_finite_inputs
import proofs.«130317_j78408922955888_2_alg».proof.Proof.GcnSpec
import Idealize.ShloMosaic.Lib.ReduceAll
import Idealize.ShloMosaic.PureOps.Ideal.Laws

noncomputable section

namespace Cert.Pre_finite_inputs.Real

open Idealize.ShloMosaic Idealize.ShloMosaic.ValueIdx Cert.Pre_finite_inputs

/-- The scalar shape has one index. -/
instance : Subsingleton (⟨0, ![]⟩ : Shape).Idx := ⟨fun a b => funext fun d => d.elim0⟩

/-- The word `0x7F800000` is `+∞`. -/
theorem ofBits_inf : Ideal.ofBits .f32 0x7F800000#32 = ⊤ := by simp [Ideal.ofBits, Ideal.ieee]

/-- An extended real whose absolute value is strictly below `+∞` is a real number. -/
theorem real_of_abs_lt (x : EReal)
    (h : FloatOps.cmpf (F := Ideal) (φ := .f32) .olt (FloatOps.hostAbsf x) (FloatOps.ofBits .f32 0x7F800000#32) = 1#1) :
    ∃ r : ℝ, x = (r : EReal) := by
  have h' : BitVec.ofBool (decide (max x (-x) < Ideal.ofBits .f32 0x7F800000#32)) = 1#1 := h
  rw [ofBits_inf] at h'
  induction x using EReal.rec with
  | bot => exact absurd h' (by simp)
  | top => exact absurd h' (by simp)
  | coe r => exact ⟨r, rfl⟩

/-- When the conjunction over a whole array of "the entry's absolute value is below `+∞`" is true, every entry of
    the array is a real number. -/
theorem isReal_of_all {s : Shape} {axes : List (Fin s.rank)}
    (bc : (⟨0, ![]⟩ : Shape).BroadcastsInDim s (![] : Fin 0 → Fin s.rank))
    (hr : s.ReducesTo axes (⟨0, ![]⟩ : Shape)) (hu : 0 < (⟨0, ![]⟩ : Shape).numel)
    (a : FVec Ideal s .f32) (init : IVec (⟨0, ![]⟩ : Shape) 1)
    (h : Host.reduce IntOp.andi
        (cmpf .olt (Host.absf a) (broadcastInDim s ![] bc (constant (⟨0, ![]⟩ : Shape) .f32 0x7F800000#32)))
        init hr hu ix0 = 1#1) :
    Gcn.IsReal a := by
  intro i
  exact real_of_abs_lt (a i) (Host.reduce_andi_all _ init hr hu ix0 h i)

/-- Under the precondition every entry of each of the seven float arrays is a real number. -/
theorem isReal_of_pre [Cert.Pre_finite_inputs.Facts] (a0 : FVec Ideal S50000x128 .f32) (a1 : FVec Ideal S128x96 .f32)
    (a2 : FVec Ideal S96 .f32) (a3 : FVec Ideal S96x96 .f32) (a4 : FVec Ideal S96 .f32) (a5 : FVec Ideal S96x40 .f32)
    (a6 : FVec Ideal S40 .f32) (a7 : IVec S2x800000 32)
    (h : Cert.Pre_finite_inputs.fn (F := Ideal) a0 a1 a2 a3 a4 a5 a6 a7 = fun _ => 1#1) :
    Gcn.IsReal a0 ∧ Gcn.IsReal a1 ∧ Gcn.IsReal a2 ∧ Gcn.IsReal a3 ∧ Gcn.IsReal a4 ∧ Gcn.IsReal a5 ∧ Gcn.IsReal a6 := by
  have h0 : Cert.Pre_finite_inputs.fn (F := Ideal) a0 a1 a2 a3 a4 a5 a6 a7 ix0 = 1#1 := congrFun h ix0
  unfold Cert.Pre_finite_inputs.fn Cert.Pre_finite_inputs.fn_part1 at h0
  dsimp only at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨isReal_of_all _ _ _ a0 _ e0, isReal_of_all _ _ _ a1 _ e1, isReal_of_all _ _ _ a2 _ e2,
    isReal_of_all _ _ _ a3 _ e3, isReal_of_all _ _ _ a4 _ e4, isReal_of_all _ _ _ a5 _ e5,
    isReal_of_all _ _ _ a6 _ e6⟩

end Cert.Pre_finite_inputs.Real

end
-- ==== Proof.lean ====
/-
  A three-layer graph convolution, weights first against aggregation first.

  The kernel program computes, per layer, the product with the layer's weights on the grid (ten blocks of 5000 rows)
  and THEN aggregates over the edges on the host; the reference aggregates first and multiplies second.  Both end
  with the same bias and row-wise log-softmax.  On the extended reals the two arrangements agree as soon as the
  features, the weights and the biases are real numbers — the precondition —, because aggregation is a finite sum
  of rows and a finite sum of reals commutes with the product by a fixed real matrix.

  The pieces: each grid region's output array as one matrix of its inputs (KernelBlocks0–3), the kernel program's
  buffers boundary by boundary (KernelFold) under its run with the result named (KernelRun), the reference's run
  layer by layer (RefRun) and its result as the aggregation-first arrangement (RefValue), the law that joins the two
  arrangements (GcnAlgebra), and the real-valuedness of the inputs read off the precondition (FiniteInputs).
-/
import proofs.«130317_j78408922955888_2_alg».proof.Defs
import proofs.«130317_j78408922955888_2_alg».proof.Proof.Gen.Kernel
import proofs.«130317_j78408922955888_2_alg».proof.Proof.Gen.Kernel.Skeleton
import proofs.«130317_j78408922955888_2_alg».proof.Proof.Gen.Kernel.Launch
import proofs.«130317_j78408922955888_2_alg».proof.Proof.Gen.Kernel.Points
import proofs.«130317_j78408922955888_2_alg».proof.Proof.Gen.Kernel.Frame
import proofs.«130317_j78408922955888_2_alg».proof.Proof.Gen.KernelIdeal
import proofs.«130317_j78408922955888_2_alg».proof.Proof.Gen.KernelIdeal.Skeleton
import proofs.«130317_j78408922955888_2_alg».proof.Proof.Gen.KernelIdeal.Launch
import proofs.«130317_j78408922955888_2_alg».proof.Proof.Gen.KernelIdeal.Points
import proofs.«130317_j78408922955888_2_alg».proof.Proof.Gen.KernelIdeal.Frame
import proofs.«130317_j78408922955888_2_alg».proof.Proof.Gen.ReferenceIdeal
import proofs.«130317_j78408922955888_2_alg».proof.Proof.Gen.Pre_finite_inputs
import proofs.«130317_j78408922955888_2_alg».proof.Proof.GcnAlgebra
import proofs.«130317_j78408922955888_2_alg».proof.Proof.KernelRun
import proofs.«130317_j78408922955888_2_alg».proof.Proof.KernelFold
import proofs.«130317_j78408922955888_2_alg».proof.Proof.RefRun
import proofs.«130317_j78408922955888_2_alg».proof.Proof.RefValue
import proofs.«130317_j78408922955888_2_alg».proof.Proof.FiniteInputs
import Idealize.ShloMosaic.Adequacy
import Idealize.ShloMosaic.Init

noncomputable section

namespace Cert.Proof

open Idealize.ShloMosaic Idealize.ShloMosaic.TcCoe Idealize.SL.Sem

/-- The word-level kernel program runs and leaves its arguments alone. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference runs and leaves its arguments alone: its run with the result forgotten. -/
theorem frame_reference : Cert.frame_ReferenceIdeal := fun m ρ _ =>
  (θ_run Cert.ReferenceIdeal.defs _ _).mono (fun _ h c => (h c).2) (Cert.ReferenceIdeal.HandRun.run (F := Ideal) m ρ)

/-- The source and destination words the two programs compute from the edge list are the same words. -/
theorem words_eq (e7 : IVec Cert.KernelIdeal.S2x800000 32) :
    Cert.ReferenceIdeal.ReadP.val_main_v9 (F := Ideal) e7 = Cert.KernelIdeal.Fold.srcWords (Cert.KernelIdeal.Fold.srcRow e7)
    ∧ Cert.ReferenceIdeal.ReadP.val_main_v12 (F := Ideal) e7 = Cert.KernelIdeal.Fold.dstWords (Cert.KernelIdeal.Fold.dstRow e7) :=
  ⟨rfl, rfl⟩

/-- On the extended reals, from memories agreeing on the arguments, the kernel program ends at the weights-first
    arrangement of its arguments and the reference at the aggregation-first arrangement of the same arguments; the
    precondition makes every input real, and on real inputs the two arrangements are one matrix. -/
theorem algebraic : Cert.algebraic_KernelIdeal_ReferenceIdeal := by
  intro m ρ m' ρ' hpre hagree
  refine ⟨fun c => Gcn.productFirst (N := 50000) (E := 800000) (by decide) (Cert.KernelIdeal.Fold.src m c) (Cert.KernelIdeal.Fold.dst m c)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.result m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.HandRun.run (F := Ideal) m' ρ')
    obtain ⟨g0, g1, g2, g3, g4, g5, g6, g7⟩ := hagree c
    rw [g0, g1, g2, g3, g4, g5, g6, g7, Cert.ReferenceIdeal.RefValue.result_eq]
    obtain ⟨r0, r1, r2, r3, r4, r5, r6⟩ := Cert.Pre_finite_inputs.Real.isReal_of_pre _ _ _ _ _ _ _ _ (hpre c)
    obtain ⟨ws, wd⟩ := words_eq (m ((c.tc : Thread Cert.KernelIdeal.nD Cert.KernelIdeal.τ).loc Cert.KernelIdeal.main_arg7))
    rw [ws, wd]
    exact (Gcn.productFirst_eq_aggregateFirst (by decide) _ _ _ _ _ _ _ _ _ r0 r1 r2 r3 r4 r5).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
